-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x96x96x3 : Shape := ⟨4, ![2, 96, 96, 3]⟩
abbrev S_ : Shape := ⟨0, ![]⟩

class Facts : Prop where
  bcast_S_S2x96x96x3 : S_.BroadcastsInDim S2x96x96x3 (![] : Fin 0 → Fin S2x96x96x3.rank)
  reducesTo_S2x96x96x3_S_d0_1_2_3 : S2x96x96x3.ReducesTo [0, 1, 2, 3] S_
  h_S_ : 0 < S_.numel

variable [Facts]

def fn {F : FTy → Type} [FloatOps F] (main_arg0 : FVec F S2x96x96x3 .f32) (main_arg1 : FVec F S2x96x96x3 .f32) : IVec S_ 1 :=
  let main_v0 : FVec F S2x96x96x3 .f32 := Host.absf main_arg0
  let main_cst : FVec F S_ .f32 := constant S_ .f32 0x7F800000#32
  let main_v1 : FVec F S2x96x96x3 .f32 := broadcastInDim S2x96x96x3 ![] bcast_S_S2x96x96x3 main_cst
  let main_v2 : IVec S2x96x96x3 1 := cmpf .olt main_v0 main_v1
  let main_c : IVec S_ 1 := constantI S_ 1 1#1
  let main_v3 : IVec S_ 1 := (fun x v => Host.reduce IntOp.andi x v reducesTo_S2x96x96x3_S_d0_1_2_3 h_S_) main_v2 main_c
  let main_v4 : FVec F S2x96x96x3 .f32 := Host.absf main_arg1
  let main_cst_0 : FVec F S_ .f32 := constant S_ .f32 0x7F800000#32
  let main_v5 : FVec F S2x96x96x3 .f32 := broadcastInDim S2x96x96x3 ![] bcast_S_S2x96x96x3 main_cst_0
  let main_v6 : IVec S2x96x96x3 1 := cmpf .olt main_v4 main_v5
  let main_c_1 : IVec S_ 1 := constantI S_ 1 1#1
  let main_v7 : IVec S_ 1 := (fun x v => Host.reduce IntOp.andi x v reducesTo_S2x96x96x3_S_d0_1_2_3 h_S_) main_v6 main_c_1
  let main_v8 : IVec S_ 1 := andi main_v3 main_v7
  main_v8
-- ==== Kernel.lean ====
abbrev S2x96x96x3 : Shape := ⟨4, ![2, 96, 96, 3]⟩
abbrev S2x9216x3 : Shape := ⟨3, ![2, 9216, 3]⟩
abbrev S2x3x9216 : Shape := ⟨3, ![2, 3, 9216]⟩
abbrev S2x1x1 : Shape := ⟨3, ![2, 1, 1]⟩
abbrev S1x1024x3 : Shape := ⟨3, ![1, 1024, 3]⟩
abbrev S1x3x9216 : Shape := ⟨3, ![1, 3, 9216]⟩
abbrev S1x1x1 : Shape := ⟨3, ![1, 1, 1]⟩
abbrev S1x9216 : Shape := ⟨2, ![1, 9216]⟩
abbrev S1x1 : Shape := ⟨2, ![1, 1]⟩
abbrev S1024x3 : Shape := ⟨2, ![1024, 3]⟩
abbrev S1024x1 : Shape := ⟨2, ![1024, 1]⟩
abbrev S1x3x1024 : Shape := ⟨3, ![1, 3, 1024]⟩
abbrev S3x1024 : Shape := ⟨2, ![3, 1024]⟩
abbrev S1x1024 : Shape := ⟨2, ![1, 1024]⟩
abbrev S1024x1024 : Shape := ⟨2, ![1024, 1024]⟩
abbrev S1024 : Shape := ⟨1, ![1024]⟩
abbrev S1 : Shape := ⟨1, ![1]⟩
abbrev S_ : Shape := ⟨0, ![]⟩

abbrev nBuf : Space → Nat
  | .hbm => 10
  | .vmem => 8
  | .smem => 0
  | _ => 0

abbrev bufTy : (tb : Table) → Fin (tcTables nBuf tb) → BufTy
  | .hbm, ⟨0, _⟩ => ⟨S2x96x96x3, .f32⟩
  | .hbm, ⟨1, _⟩ => ⟨S2x96x96x3, .f32⟩
  | .hbm, ⟨2, _⟩ => ⟨S2x9216x3, .f32⟩
  | .hbm, ⟨3, _⟩ => ⟨S2x9216x3, .f32⟩
  | .hbm, ⟨4, _⟩ => ⟨S2x3x9216, .f32⟩
  | .hbm, ⟨5, _⟩ => ⟨S2x1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x9216, .f32⟩
  | .local _ .vmem, ⟨3, _⟩ => ⟨S1x3x9216, .f32⟩
  | .local _ .vmem, ⟨4, _⟩ => ⟨S1x1x1, .f32⟩
  | .local _ .vmem, ⟨5, _⟩ => ⟨S1x1x1, .f32⟩
  | .local _ .vmem, ⟨6, _⟩ => ⟨S1x9216, .f32⟩
  | .local _ .vmem, ⟨7, _⟩ => ⟨S1x1, .f32⟩
  | _, _ => ⟨S2x96x96x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 9], ![false, false]⟩

@[reducible] def k0_t1_loop : Scf.Loop 32 :=
  let c0_i32_3 : BitVec 32 := 0#32
  let c9_i32 : BitVec 32 := 9#32
  let v9 : BitVec 32 := Scalar.addi c0_i32_3 c9_i32
  let c1_i32 : BitVec 32 := 1#32
  ⟨c0_i32_3, v9, c1_i32⟩
def k0_mult1 (k0_t1 : Fin k0_t1_loop.trips) : BitVec 32 :=
  let c0_i32_3 : BitVec 32 := 0#32
  let c1_i32 : BitVec 32 := 1#32
  let arg7 : BitVec 32 := Scf.iv c0_i32_3 c1_i32 k0_t1
  let c1024_i32 : BitVec 32 := 1024#32
  let v25 : BitVec 32 := Scalar.muli arg7 c1024_i32
  v25
def k0_off1 (k0_t1 : Fin k0_t1_loop.trips) : Fin 3 → Nat :=
  let c0_16 : Index := 0#32
  let c0_17 : Index := 0#32
  let c0_i32_3 : BitVec 32 := 0#32
  let c1_i32 : BitVec 32 := 1#32
  let arg7 : BitVec 32 := Scf.iv c0_i32_3 c1_i32 k0_t1
  let c1024_i32 : BitVec 32 := 1024#32
  let v25 : BitVec 32 := Scalar.muli arg7 c1024_i32
  let v26 : BitVec 32 := v25
  let v27 : Index := Scalar.indexCast v26
  ![0, 0, v27.toNat]
def k0_off2 (k0_t1 : Fin k0_t1_loop.trips) : Fin 2 → Nat :=
  let c0_20 : Index := 0#32
  let c0_i32_3 : BitVec 32 := 0#32
  let c1_i32 : BitVec 32 := 1#32
  let arg7 : BitVec 32 := Scf.iv c0_i32_3 c1_i32 k0_t1
  let c1024_i32 : BitVec 32 := 1024#32
  let v25 : BitVec 32 := Scalar.muli arg7 c1024_i32
  let v26 : BitVec 32 := v25
  let v52 : Index := Scalar.indexCast v26
  ![0, v52.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x9216 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S2x96x96x3_S2x9216x3 : S2x96x96x3.ShapeCasts S2x9216x3
  transposes_S2x9216x3_S2x3x9216_0_2_1 : S2x9216x3.Transposes [0, 2, 1] S2x3x9216
  inb_S1x9216_S1x9216_0_0 : ∀ a, (![0, 0] : Fin 2 → Nat) a + S1x9216.size a ≤ S1x9216.size a
  h_S1x9216 : 0 < S1x9216.numel
  shapeCasts_S1x9216_S1x9216 : S1x9216.ShapeCasts S1x9216
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  h_S1x3x1024 : 0 < S1x3x1024.numel
  shapeCasts_S1x3x1024_S3x1024 : S1x3x1024.ShapeCasts S3x1024
  slices_S3x1024_o0_0_S1x1024 : S3x1024.Slices ![0, 0] S1x1024
  broadcasts_S1024x1_S1024x1024 : S1024x1.Broadcasts S1024x1024
  broadcasts_S1x1024_S1024x1024 : S1x1024.Broadcasts S1024x1024
  slices_S3x1024_o1_0_S1x1024 : S3x1024.Slices ![1, 0] S1x1024
  slices_S3x1024_o2_0_S1x1024 : S3x1024.Slices ![2, 0] S1x1024
  reduces_S1024x1024_S1024 : S1024x1024.Reduces [1] S1024
  shapeCasts_S1024_S1024x1 : S1024.ShapeCasts S1024x1
  reduces_S1024x1024_S1024_2 : S1024x1024.Reduces [0] S1024
  shapeCasts_S1024_S1x1024 : S1024.ShapeCasts S1x1024
  h_S1x1024 : 0 < S1x1024.numel
  shapeCasts_S1x1024_S1x1024 : S1x1024.ShapeCasts S1x1024
  reduces_S1024x1_S1 : S1024x1.Reduces [0] S1
  shapeCasts_S1_S1x1 : S1.ShapeCasts S1x1
  reduces_S1x9216_S1 : S1x9216.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S1x3x1024.size a ≤ S1x3x9216.size a
  k0_off2_inb : ∀ k0_t1 : Fin k0_t1_loop.trips, ∀ a, (k0_off2 k0_t1) a + S1x1024.size a ≤ S1x9216.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S2x9216x3.size a
  hwx0_0 : ∀ i : grid0.Coords, EltTy.bits .f32 = 32 ∨ (Rect.block (s := S2x9216x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x9216.size a ≤ S2x3x9216.size a
  hwx0_1 : ∀ i : grid0.Coords, EltTy.bits .f32 = 32 ∨ (Rect.block (s := S2x3x9216) S1x3x9216.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x9216.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2x96x96x3 : Shape := ⟨4, ![2, 96, 96, 3]⟩
abbrev S2x9216x3 : Shape := ⟨3, ![2, 9216, 3]⟩
abbrev S_ : Shape := ⟨0, ![]⟩
abbrev S2x9216 : Shape := ⟨2, ![2, 9216]⟩
abbrev S2x9216x9216 : Shape := ⟨3, ![2, 9216, 9216]⟩
abbrev S2x9216x1 : Shape := ⟨3, ![2, 9216, 1]⟩
abbrev S2x1x9216 : Shape := ⟨3, ![2, 1, 9216]⟩

abbrev nBuf : Space → Nat
  | .hbm => 31
  | .vmem => 0
  | .smem => 0
  | _ => 0

abbrev bufTy : (tb : Table) → Fin (tcTables nBuf tb) → BufTy
  | .hbm, ⟨0, _⟩ => ⟨S2x96x96x3, .f32⟩
  | .hbm, ⟨1, _⟩ => ⟨S2x96x96x3, .f32⟩
  | .hbm, ⟨2, _⟩ => ⟨S2x9216x3, .f32⟩
  | .hbm, ⟨3, _⟩ => ⟨S2x9216x3, .f32⟩
  | .hbm, ⟨4, _⟩ => ⟨S2x9216x3, .f32⟩
  | .hbm, ⟨5, _⟩ => ⟨S_, .f32⟩
  | .hbm, ⟨6, _⟩ => ⟨S2x9216, .f32⟩
  | .hbm, ⟨7, _⟩ => ⟨S2x9216x3, .f32⟩
  | .hbm, ⟨8, _⟩ => ⟨S_, .f32⟩
  | .hbm, ⟨9, _⟩ => ⟨S2x9216, .f32⟩
  | .hbm, ⟨10, _⟩ => ⟨S2x9216x9216, .f32⟩
  | .hbm, ⟨11, _⟩ => ⟨S2x9216x1, .f32⟩
  | .hbm, ⟨12, _⟩ => ⟨S2x1x9216, .f32⟩
  | .hbm, ⟨13, _⟩ => ⟨S2x9216x9216, .f32⟩
  | .hbm, ⟨14, _⟩ => ⟨S2x9216x9216, .f32⟩
  | .hbm, ⟨15, _⟩ => ⟨S2x9216x9216, .f32⟩
  | .hbm, ⟨16, _⟩ => ⟨S_, .f32⟩
  | .hbm, ⟨17, _⟩ => ⟨S2x9216x9216, .f32⟩
  | .hbm, ⟨18, _⟩ => ⟨S2x9216x9216, .f32⟩
  | .hbm, ⟨19, _⟩ => ⟨S2x9216x9216, .f32⟩
  | .hbm, ⟨20, _⟩ => ⟨S_, .f32⟩
  | .hbm, ⟨21, _⟩ => ⟨S2x9216, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S2x9216, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S2x96x96x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩

abbrev nD : Nat := 1
abbrev τ : Topo := Topo.v7x

variable {F : FTy → Type} [FloatOps F]

class Facts₀ : Prop where
  shapeCasts_S2x96x96x3_S2x9216x3 : S2x96x96x3.ShapeCasts S2x9216x3
  reducesTo_S2x9216x3_S2x9216_d2 : S2x9216x3.ReducesTo [2] S2x9216
  h_S_ : 0 < S_.numel
  bcast_S2x9216_S2x9216x1_0_1 : S2x9216.BroadcastsInDim S2x9216x1 (![0, 1] : Fin 2 → Fin S2x9216x1.rank)
  bcast_S2x9216_S2x1x9216_0_2 : S2x9216.BroadcastsInDim S2x1x9216 (![0, 2] : Fin 2 → Fin S2x1x9216.rank)
  bcast_S2x9216x1_S2x9216x9216_0_1_2 : S2x9216x1.BroadcastsInDim S2x9216x9216 (![0, 1, 2] : Fin 3 → Fin S2x9216x9216.rank)
  bcast_S2x1x9216_S2x9216x9216_0_1_2 : S2x1x9216.BroadcastsInDim S2x9216x9216 (![0, 1, 2] : Fin 3 → Fin S2x9216x9216.rank)
  bcast_S_S2x9216x9216 : S_.BroadcastsInDim S2x9216x9216 (![] : Fin 0 → Fin S2x9216x9216.rank)
  reducesTo_S2x9216x9216_S2x9216_d1 : S2x9216x9216.ReducesTo [1] S2x9216
  reducesTo_S2x9216_S_d0_1 : S2x9216.ReducesTo [0, 1] S_
  reducesTo_S2x9216x9216_S2x9216_d2 : S2x9216x9216.ReducesTo [2] S2x9216
  dot_S2x9216x3_S2x9216x3_S2x9216x9216_2_2_1_1_0_0_wf : DotDims.WF S2x9216x3 S2x9216x3 S2x9216x9216 [2] [2] [1] [1] [0] [0]

variable [Facts₀]

def dot_S2x9216x3_S2x9216x3_S2x9216x9216_2_2_1_1_0_0 : DotDims S2x9216x3 S2x9216x3 S2x9216x9216 where
  lhsContracting := [2]
  rhsContracting := [2]
  lhsNonContracting := [1]
  rhsNonContracting := [1]
  lhsBatch := [0]
  rhsBatch := [0]
  wf := dot_S2x9216x3_S2x9216x3_S2x9216x9216_2_2_1_1_0_0_wf

class Facts : Prop extends Facts₀ where

variable [Facts]
-- ==== Proof.Spec.lean ====
/-
  The function both programs compute, stated over the extended reals with no program in sight.

  A batch holds two entries; each entry pairs a first cloud `x` and a second cloud `y` of 9216 points in
  three coordinates. The squared distance between point `i` of the first cloud and point `j` of the second
  is the sum over the three coordinates of the squared differences, added in coordinate order. Every point
  of one cloud is charged its squared distance to the nearest point of the other cloud; the minimum is a
  fold of `min` that starts from the value of the word 0x7F800000 (plus infinity). An entry's total is
  the sum of the charges of the first cloud's points plus the sum of the charges of the second cloud's
  points, and the result is the sum of the two entries' totals, started from the value of the zero word,
  divided by the value of the word 0x40000000 (two).

  The float words are kept as words: the same word stands on both sides of every equation in which it
  occurs, so only the zero word (the unit of a sum) and the word for two (in the expansion of a square of
  a difference) are ever evaluated.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Two entries, 9216 points each, three coordinates per point. -/
abbrev Cloud : Shape := ⟨3, ![2, 9216, 3]⟩

/-- The shape of a single number. -/
abbrev One : Shape := ⟨0, ![]⟩

/-- The value a minimum starts from: the word of plus infinity. -/
def inf32 : EReal := Ideal.ofBits .f32 0x7F800000#32

/-- The value a sum starts from: the zero word. -/
def zero32 : EReal := Ideal.ofBits .f32 0x00000000#32

/-- The squared distance between point `i` of the first cloud and point `j` of the second, in entry `b`:
    the three squared coordinate differences, added in coordinate order. -/
def sqDist (x y : Cloud.Idx → EReal) (b : Fin 2) (i j : Fin 9216) : EReal :=
  ((x (ix3 b i 0) - y (ix3 b j 0)) * (x (ix3 b i 0) - y (ix3 b j 0))
      + (x (ix3 b i 1) - y (ix3 b j 1)) * (x (ix3 b i 1) - y (ix3 b j 1)))
    + (x (ix3 b i 2) - y (ix3 b j 2)) * (x (ix3 b i 2) - y (ix3 b j 2))

/-- What point `i` of the first cloud is charged: its squared distance to the nearest point of the second. -/
def toSecond (x y : Cloud.Idx → EReal) (b : Fin 2) (i : Fin 9216) : EReal :=
  (Finset.univ : Finset (Fin 9216)).fold min inf32 (fun j => sqDist x y b i j)

/-- What point `j` of the second cloud is charged: its squared distance to the nearest point of the first. -/
def toFirst (x y : Cloud.Idx → EReal) (b : Fin 2) (j : Fin 9216) : EReal :=
  (Finset.univ : Finset (Fin 9216)).fold min inf32 (fun i => sqDist x y b i j)

/-- One entry's total: the charges of the first cloud's points, then those of the second's. -/
def entryTotal (x y : Cloud.Idx → EReal) (b : Fin 2) : EReal :=
  (∑ i : Fin 9216, toSecond x y b i) + ∑ j : Fin 9216, toFirst x y b j

/-- The same squared distance inside one tile: `u` holds 1024 points of the first cloud row by row
    (`u (0, r, c)` is coordinate `c` of the tile's point `r`) and `w` holds 1024 points of the second
    cloud coordinate by coordinate (`w (0, c, q)` is coordinate `c` of the tile's point `q`). -/
def tileDist (u : (⟨3, ![1, 1024, 3]⟩ : Shape).Idx → EReal) (w : (⟨3, ![1, 3, 1024]⟩ : Shape).Idx → EReal)
    (r q : Fin 1024) : EReal :=
  ((u (ix3 0 r 0) - w (ix3 0 0 q)) * (u (ix3 0 r 0) - w (ix3 0 0 q))
      + (u (ix3 0 r 1) - w (ix3 0 1 q)) * (u (ix3 0 r 1) - w (ix3 0 1 q)))
    + (u (ix3 0 r 2) - w (ix3 0 2 q)) * (u (ix3 0 r 2) - w (ix3 0 2 q))

/-- The result: the two entries' totals summed from the zero word's value, divided by the word for two. -/
def result (x y : Cloud.Idx → EReal) : FVec Ideal One .f32 :=
  Host.divf (F := Ideal) (fun _ => zero32 + (entryTotal x y 0 + entryTotal x y 1))
    (constant (F := Ideal) One .f32 0x40000000#32)

end Cert.Chamfer

end
-- ==== Proof.RefValue.lean ====
import proofs.«119021_j48292612276314_2_alg».proof.Proof.Gen.ReferenceIdeal.Read
import proofs.«119021_j48292612276314_2_alg».proof.Proof.Spec

noncomputable section

namespace Cert.Chamfer.RefValue

open Idealize.ShloMosaic Idealize.ShloMosaic.ValueIdx Cert.ReferenceIdeal Cert.ReferenceIdeal.Gen Cert.ReferenceIdeal.Read

/-- The expansion of a squared distance, for real coordinates: the sum of the three squared differences is
    the two sums of squares (each started from zero) minus twice the inner product. Over the extended reals
    this needs every coordinate finite, so it is stated for real numbers seen as extended reals; `two` is any
    extended real known to be the real number two. -/
theorem expand_real (x0 x1 x2 y0 y1 y2 : ℝ) (two : EReal) (h2 : two = ((2 : ℝ) : EReal)) :
    (((0 : EReal) + ((x0 : EReal) * x0 + (x1 : EReal) * x1 + (x2 : EReal) * x2))
        + ((0 : EReal) + ((y0 : EReal) * y0 + (y1 : EReal) * y1 + (y2 : EReal) * y2)))
      - two * ((x0 : EReal) * y0 + (x1 : EReal) * y1 + (x2 : EReal) * y2)
    = (((x0 : EReal) - y0) * ((x0 : EReal) - y0) + ((x1 : EReal) - y1) * ((x1 : EReal) - y1))
      + ((x2 : EReal) - y2) * ((x2 : EReal) - y2) := by
  subst h2
  simp only [zero_add, ← EReal.coe_mul, ← EReal.coe_add, ← EReal.coe_sub]
  exact congrArg _ (by ring)

/-- The word 0x40000000 denotes the real number two. -/
theorem two_word : Ideal.ofBits .f32 0x40000000#32 = ((2 : ℝ) : EReal) := by
  simp [Ideal.ofBits, Ideal.ieee, -EReal.coe_mul]
  norm_num

/-- The reference's pairwise table at entry `b`, first-cloud point `p`, second-cloud point `q`: the two sums of
    squares, each started from the zero word, added, minus the word for two times the inner product. Here the
    two clouds are the reshaped arguments. -/
theorem v14_apply (a0 a1 : (⟨S2x96x96x3, .f32⟩ : BufTy).Contents (Elt Ideal)) (b : Fin 2) (p q : Fin 9216) :
    val_main_v14 (F := Ideal) a0 a1 (ix3 b p q)
      = ((zero32 + ∑ k : Fin 3, val_main_v0 (F := Ideal) a0 (ix3 b p k) * val_main_v0 (F := Ideal) a0 (ix3 b p k))
          + (zero32 + ∑ k : Fin 3, val_main_v1 (F := Ideal) a1 (ix3 b q k) * val_main_v1 (F := Ideal) a1 (ix3 b q k)))
        - Ideal.ofBits .f32 0x40000000#32
          * ∑ k : Fin 3, val_main_v0 (F := Ideal) a0 (ix3 b p k) * val_main_v1 (F := Ideal) a1 (ix3 b q k) := by
  have e1 : ∀ k, idx_main_v3 (idx_main_v7 (idx_main_v9 (ix3 b p q))) k = ix3 b p k := fun k =>
    funext fun a => Fin.ext (by match a with | ⟨0, _⟩ => rfl | ⟨1, _⟩ => rfl | ⟨2, _⟩ => rfl)
  have e2 : ∀ k, idx_main_v5 (idx_main_v8 (idx_main_v10 (ix3 b p q))) k = ix3 b q k := fun k =>
    funext fun a => Fin.ext (by match a with | ⟨0, _⟩ => rfl | ⟨1, _⟩ => rfl | ⟨2, _⟩ => rfl)
  have e3 : ∀ k, lidx_main_v6 (ix3 b p q) k = ix3 b p k := fun k =>
    funext fun a => Fin.ext (by match a with | ⟨0, _⟩ => rfl | ⟨1, _⟩ => rfl | ⟨2, _⟩ => rfl)
  have e4 : ∀ k, ridx_main_v6 (ix3 b p q) k = ix3 b q k := fun k =>
    funext fun a => Fin.ext (by match a with | ⟨0, _⟩ => rfl | ⟨1, _⟩ => rfl | ⟨2, _⟩ => rfl)
  rw [val_main_v14_apply, val_main_v11_apply, val_main_v13_apply, val_main_v9_apply, val_main_v7_apply,
    val_main_v3_apply, val_main_v10_apply, val_main_v8_apply, val_main_v5_apply, val_main_v12_apply,
    val_main_v6_apply]
  simp only [e1, e2, e3, e4, val_main_v2_apply, val_main_v4_apply, val_main_cst_apply, val_main_cst_0_apply,
    val_main_cst_1_apply, Ideal.ofBits_def, Ideal.addf_def, Ideal.subf_def, Ideal.mulf_def]
  rfl

/-- With every coordinate of both clouds real, the reference's table entry is the squared distance. -/
theorem v14_eq_sqDist (a0 a1 : (⟨S2x96x96x3, .f32⟩ : BufTy).Contents (Elt Ideal))
    (hx : ∀ i, ∃ r : ℝ, val_main_v0 (F := Ideal) a0 i = (r : EReal))
    (hy : ∀ i, ∃ r : ℝ, val_main_v1 (F := Ideal) a1 i = (r : EReal)) (b : Fin 2) (p q : Fin 9216) :
    val_main_v14 (F := Ideal) a0 a1 (ix3 b p q)
      = sqDist (val_main_v0 (F := Ideal) a0) (val_main_v1 (F := Ideal) a1) b p q := by
  obtain ⟨x0, hx0⟩ := hx (ix3 b p 0)
  obtain ⟨x1, hx1⟩ := hx (ix3 b p 1)
  obtain ⟨x2, hx2⟩ := hx (ix3 b p 2)
  obtain ⟨y0, hy0⟩ := hy (ix3 b q 0)
  obtain ⟨y1, hy1⟩ := hy (ix3 b q 1)
  obtain ⟨y2, hy2⟩ := hy (ix3 b q 2)
  rw [v14_apply, Fin.sum_univ_three, Fin.sum_univ_three, Fin.sum_univ_three]
  unfold sqDist zero32
  rw [hx0, hx1, hx2, hy0, hy1, hy2, Ideal.ofBits_zero_f32]
  exact expand_real x0 x1 x2 y0 y1 y2 _ two_word

/-- The table reduces over its middle axis (the first cloud's points) and over its last axis (the second's). -/
theorem red1 : S2x9216x9216.Reduces [1] S2x9216 := by decide
theorem red2 : S2x9216x9216.Reduces [2] S2x9216 := by decide

/-- A fold of the minimum operation of the ideal floats is the fold of `min`, and folds of equal functions agree. -/
theorem fold_min_congr (f g : Fin 9216 → EReal) (init : EReal) (h : ∀ p, f p = g p) :
    (Finset.univ : Finset (Fin 9216)).fold (FloatOps.minimumf (F := Ideal) (φ := .f32)) init f
      = (Finset.univ : Finset (Fin 9216)).fold min init g := by
  have e : f = g := funext h
  subst e
  rfl

/-- The minimum over the first cloud's points, at entry `b` and second-cloud point `q`, is that point's charge. -/
theorem v15_apply (a0 a1 : (⟨S2x96x96x3, .f32⟩ : BufTy).Contents (Elt Ideal))
    (hx : ∀ i, ∃ r : ℝ, val_main_v0 (F := Ideal) a0 i = (r : EReal))
    (hy : ∀ i, ∃ r : ℝ, val_main_v1 (F := Ideal) a1 i = (r : EReal)) (b : Fin 2) (q : Fin 9216) :
    val_main_v15 (F := Ideal) a0 a1 (ix2 b q)
      = toFirst (val_main_v0 (F := Ideal) a0) (val_main_v1 (F := Ideal) a1) b q := by
  unfold val_main_v15
  rw [Host.reduce_eq_fold_single FloatOps.minimumf _ _ reducesTo_S2x9216x9216_S2x9216_d1 red1 h_S_ (ix2 b q)]
  unfold toFirst
  refine fold_min_congr _ _ _ (fun p => ?_)
  have e : red1.lift (ix2 b q) p = ix3 b p q :=
    funext fun a => Fin.ext (by match a with | ⟨0, _⟩ => rfl | ⟨1, _⟩ => rfl | ⟨2, _⟩ => rfl)
  show val_main_v14 (F := Ideal) a0 a1 (red1.lift (ix2 b q) p) = _
  rw [e]
  exact v14_eq_sqDist a0 a1 hx hy b p q

/-- The minimum over the second cloud's points, at entry `b` and first-cloud point `p`, is that point's charge. -/
theorem v17_apply (a0 a1 : (⟨S2x96x96x3, .f32⟩ : BufTy).Contents (Elt Ideal))
    (hx : ∀ i, ∃ r : ℝ, val_main_v0 (F := Ideal) a0 i = (r : EReal))
    (hy : ∀ i, ∃ r : ℝ, val_main_v1 (F := Ideal) a1 i = (r : EReal)) (b : Fin 2) (p : Fin 9216) :
    val_main_v17 (F := Ideal) a0 a1 (ix2 b p)
      = toSecond (val_main_v0 (F := Ideal) a0) (val_main_v1 (F := Ideal) a1) b p := by
  unfold val_main_v17
  rw [Host.reduce_eq_fold_single FloatOps.minimumf _ _ reducesTo_S2x9216x9216_S2x9216_d2 red2 h_S_ (ix2 b p)]
  unfold toSecond
  refine fold_min_congr _ _ _ (fun q => ?_)
  have e : red2.lift (ix2 b p) q = ix3 b p q :=
    funext fun a => Fin.ext (by match a with | ⟨0, _⟩ => rfl | ⟨1, _⟩ => rfl | ⟨2, _⟩ => rfl)
  show val_main_v14 (F := Ideal) a0 a1 (red2.lift (ix2 b p) q) = _
  rw [e]
  exact v14_eq_sqDist a0 a1 hx hy b p q

/-- The second cloud's charges summed over both entries, started from the zero word. -/
theorem v16_apply (a0 a1 : (⟨S2x96x96x3, .f32⟩ : BufTy).Contents (Elt Ideal))
    (hx : ∀ i, ∃ r : ℝ, val_main_v0 (F := Ideal) a0 i = (r : EReal))
    (hy : ∀ i, ∃ r : ℝ, val_main_v1 (F := Ideal) a1 i = (r : EReal)) (i : S_.Idx) :
    val_main_v16 (F := Ideal) a0 a1 i
      = zero32 + ∑ b : Fin 2, ∑ q : Fin 9216,
          toFirst (val_main_v0 (F := Ideal) a0) (val_main_v1 (F := Ideal) a1) b q := by
  rw [val_main_v16_apply, sum_idx2]
  exact congrArg (zero32 + ·) (Finset.sum_congr rfl fun b _ => Finset.sum_congr rfl fun q _ =>
    v15_apply a0 a1 hx hy b q)

/-- The first cloud's charges summed over both entries, started from the zero word. -/
theorem v18_apply (a0 a1 : (⟨S2x96x96x3, .f32⟩ : BufTy).Contents (Elt Ideal))
    (hx : ∀ i, ∃ r : ℝ, val_main_v0 (F := Ideal) a0 i = (r : EReal))
    (hy : ∀ i, ∃ r : ℝ, val_main_v1 (F := Ideal) a1 i = (r : EReal)) (i : S_.Idx) :
    val_main_v18 (F := Ideal) a0 a1 i
      = zero32 + ∑ b : Fin 2, ∑ p : Fin 9216,
          toSecond (val_main_v0 (F := Ideal) a0) (val_main_v1 (F := Ideal) a1) b p := by
  rw [val_main_v18_apply, sum_idx2]
  exact congrArg (zero32 + ·) (Finset.sum_congr rfl fun b _ => Finset.sum_congr rfl fun p _ =>
    v17_apply a0 a1 hx hy b p)

/-- Regrouping the four partial sums: the reference adds the second cloud's charges of both entries, then the
    first cloud's; the specification adds entry by entry. Sums of extended reals commute and associate, and
    the starting value is zero. -/
theorem regroup (z F0 F1 S0 S1 : EReal) (hz : z = 0) :
    (z + (F0 + F1)) + (z + (S0 + S1)) = z + ((S0 + F0) + (S1 + F1)) := by
  subst hz
  rw [zero_add, zero_add, zero_add, add_add_add_comm, add_comm F0 S0, add_comm F1 S1]

/-- The reference's total before the division is the specification's. -/
theorem v19_eq (a0 a1 : (⟨S2x96x96x3, .f32⟩ : BufTy).Contents (Elt Ideal))
    (hx : ∀ i, ∃ r : ℝ, val_main_v0 (F := Ideal) a0 i = (r : EReal))
    (hy : ∀ i, ∃ r : ℝ, val_main_v1 (F := Ideal) a1 i = (r : EReal)) :
    val_main_v19 (F := Ideal) a0 a1
      = fun _ => zero32 + (entryTotal (val_main_v0 (F := Ideal) a0) (val_main_v1 (F := Ideal) a1) 0
          + entryTotal (val_main_v0 (F := Ideal) a0) (val_main_v1 (F := Ideal) a1) 1) := by
  funext i
  rw [val_main_v19_apply, Ideal.addf_def, v16_apply a0 a1 hx hy, v18_apply a0 a1 hx hy, Fin.sum_univ_two,
    Fin.sum_univ_two]
  unfold entryTotal
  exact regroup _ _ _ _ _ (by unfold zero32; exact Ideal.ofBits_zero_f32)

/-- The reference program's result is the specification's, for arguments whose entries are all real. -/
theorem ref_value
    (a0 a1 : (⟨Cert.ReferenceIdeal.S2x96x96x3, .f32⟩ : BufTy).Contents (Elt Ideal))
    (hc : Cert.ReferenceIdeal.S2x96x96x3.ShapeCasts Cert.Chamfer.Cloud)
    (h0 : ∀ i, ∃ r : ℝ, a0 i = (r : EReal)) (h1 : ∀ i, ∃ r : ℝ, a1 i = (r : EReal)) :
    Cert.ReferenceIdeal.Read.val_main_v20 (F := Ideal) a0 a1
      = Cert.Chamfer.result (shapeCast Cert.Chamfer.Cloud a0 hc) (shapeCast Cert.Chamfer.Cloud a1 hc) := by
  have hx : ∀ i, ∃ r : ℝ, val_main_v0 (F := Ideal) a0 i = (r : EReal) := fun i => by
    rw [val_main_v0_apply]; exact h0 _
  have hy : ∀ i, ∃ r : ℝ, val_main_v1 (F := Ideal) a1 i = (r : EReal) := fun i => by
    rw [val_main_v1_apply]; exact h1 _
  unfold val_main_v20 result
  rw [v19_eq a0 a1 hx hy]
  rfl

end Cert.Chamfer.RefValue

end
-- ==== Proof.Finite.lean ====
import proofs.«119021_j48292612276314_2_alg».proof.Defs
import proofs.«119021_j48292612276314_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Chamfer.Finite

open Idealize.ShloMosaic Idealize.SL.Sem

/-- An extended real whose absolute value lies strictly below plus infinity is a real number:
    at either infinity the absolute value is plus infinity itself. -/
theorem real_of_abs_lt_top (x : EReal) (h : max x (-x) < ⊤) : ∃ r : ℝ, x = (r : EReal) := by
  induction x using EReal.rec with
  | bot => simp at h
  | top => simp at h
  | coe r => exact ⟨r, rfl⟩

/-- The shape of a single number has one index. -/
instance : Subsingleton Cert.Pre_finite_inputs.S_.Idx := ⟨fun a b => funext fun d => d.elim0⟩

/-- One argument of the precondition: when the conjunction over every entry of "the absolute value is below
    the plus-infinity word" holds, every entry is a real number. -/
theorem real_of_all [Cert.Pre_finite_inputs.Facts] (x : FVec Ideal Cert.Pre_finite_inputs.S2x96x96x3 .f32)
    (h : Host.reduce IntOp.andi
        (cmpf .olt (Host.absf x)
          (broadcastInDim Cert.Pre_finite_inputs.S2x96x96x3 ![] Cert.Pre_finite_inputs.Facts.bcast_S_S2x96x96x3
            (constant Cert.Pre_finite_inputs.S_ .f32 0x7F800000#32)))
        (constantI Cert.Pre_finite_inputs.S_ 1 1#1) Cert.Pre_finite_inputs.Facts.reducesTo_S2x96x96x3_S_d0_1_2_3
        Cert.Pre_finite_inputs.Facts.h_S_ ValueIdx.ix0 = 1#1)
    (i : Cert.Pre_finite_inputs.S2x96x96x3.Idx) : ∃ r : ℝ, x i = (r : EReal) := by
  have e := Host.reduce_andi_all _ _ _ _ _ h i
  rw [ValueIdx.cmpf_apply,
    broadcastInDim_apply _ Cert.Pre_finite_inputs.Facts.bcast_S_S2x96x96x3 _ i (fun a => a.elim0) (fun a => a.elim0)] at e
  have ht : Ideal.ofBits .f32 0x7F800000#32 = ⊤ := by simp [Ideal.ofBits, Ideal.ieee]
  have e' : Ideal.cmp .olt (max (x i) (-(x i))) (Ideal.ofBits .f32 0x7F800000#32) = 1#1 := e
  rw [ht] at e'
  refine real_of_abs_lt_top (x i) ?_
  by_contra hn
  refine absurd e' ?_
  show ¬ BitVec.ofBool (decide (max (x i) (-(x i)) < ⊤)) = 1#1
  rw [decide_eq_false hn]
  decide

theorem real_of_pre
    (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h := congrFun (hpre c) ValueIdx.ix0
  dsimp only [Cert.Pre_finite_inputs.fn] at h
  obtain ⟨h0, h1⟩ := IntOp.andi_eq_one.1 h
  exact ⟨fun i => real_of_all _ h0 i, fun i => real_of_all _ h1 i⟩

end Cert.Chamfer.Finite

end
-- ==== Proof.KArray.lean ====
/-
  From what the kernel leaves behind to the program's result.

  The kernel's output holds one number per batch entry. The kernel walks each entry in 9 steps and keeps a running
  total on the side; only after the last step of an entry does it hand the entry's number back to the output array.
  So if the number standing in the output's staging buffer after the last step of entry `b` is `perEntry b`, the
  output array ends as the two numbers `perEntry 0`, `perEntry 1`. What follows the kernel adds the two numbers
  up, starting from the value of the zero word, and divides by the value of the word for two.
-/
import proofs.«119021_j48292612276314_2_alg».proof.Proof.Gen.KernelIdeal.Frame
import proofs.«119021_j48292612276314_2_alg».proof.Proof.Spec
import Idealize.ShloMosaic.Lib.ValueIdx
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem
open Idealize.ShloMosaic.Pipeline (Dat)

namespace Cert.KernelIdeal.Arr

open Cert.KernelIdeal Cert.KernelIdeal.Gen Idealize.ShloMosaic.ValueIdx

variable (m : (ℓ : Loc nD τ sig) → Buf (Elt Ideal) ℓ) (ρ : Dev nD → PrngReg)

/-! ## The output array: one number per entry -/

/-- The output array holding `perEntry b` at entry `b`. -/
def entries (perEntry : Dev nD → Fin 2 → EReal) (c : Dev nD) : S2x1x1.Idx → EReal :=
  fun i => perEntry c ⟨(i 0).val, (i 0).isLt⟩

/-- A sum over the output array's two indices is the sum of its two numbers. -/
theorem sum_two (f : S2x1x1.Idx → EReal) : ∑ i : S2x1x1.Idx, f i = f (ix3 0 0 0) + f (ix3 1 0 0) := by
  let e : Fin 2 ≃ S2x1x1.Idx :=
    { toFun := fun b => ix3 b 0 0
      invFun := fun i => ⟨(i 0).val, (i 0).isLt⟩
      left_inv := fun b => rfl
      right_inv := fun i => by
        funext a
        match a with
        | ⟨0, _⟩ => rfl
        | ⟨1, _⟩ => exact Fin.ext (Nat.lt_one_iff.mp (i _).isLt).symm
        | ⟨2, _⟩ => exact Fin.ext (Nat.lt_one_iff.mp (i _).isLt).symm }
  rw [← Equiv.sum_comp e f, Fin.sum_univ_two]
  rfl

/-- The staging buffer's contents do not depend on how the point's number is written. -/
theorem outsAt0_congr (c : Dev nD) {n n' : ℕ} (e : n = n') (h : n < cfg0.N) (h' : n' < cfg0.N) :
    outsAt0 m c n h = outsAt0 m c n' h' := by
  subst e; rfl

/-- The output window's tile index at point `t`: the one number of entry `t / 9`. -/
theorem index2 : ∀ t : Fin cfg0.N, win0_2.index t (0 : Fin 3) = t.val / 9 ∧ win0_2.index t (1 : Fin 3) = 0
    ∧ win0_2.index t (2 : Fin 3) = 0 :=
  (by decide +kernel : ∀ t : Fin grid0.N, _)

/-- The one index of a tile of the output. -/
theorem one_idx (y : S1x1x1.Idx) : y = ix3 0 0 0 := by
  funext a
  match a with
  | ⟨0, _⟩ => exact Fin.ext (Nat.lt_one_iff.mp (y _).isLt)
  | ⟨1, _⟩ => exact Fin.ext (Nat.lt_one_iff.mp (y _).isLt)
  | ⟨2, _⟩ => exact Fin.ext (Nat.lt_one_iff.mp (y _).isLt)

/-- The entry that the output tile of point `t` sits at. -/
theorem emb_entry (t : Fin cfg0.N) (y : S1x1x1.Idx) :
    (((((cfg0.win 2).blk t).view.emb y : S2x1x1.Idx) 0).val) = t.val / 9 := by
  obtain ⟨e0, -, -⟩ := index2 t
  have hy : (y 0).val = 0 := Nat.lt_one_iff.mp (y 0).isLt
  show win0_2.index t (0 : Fin 3) * 1 + 1 * (y 0).val = t.val / 9
  rw [e0, hy]; omega

/-- Every entry of the output is handed back by the last point of that entry. -/
theorem covered (i : S2x1x1.Idx) :
    ∃ t : Fin cfg0.N, (cfg0.win 2).flush t = true ∧ i ∈ ((cfg0.win 2).blk t).view.set := by
  have hN : cfg0.N = 18 := N_0
  have h0 : (i 0).val < 2 := (i 0).isLt
  have h1 : (i 1).val < 1 := (i 1).isLt
  have h2 : (i 2).val < 1 := (i 2).isLt
  obtain ⟨t, ht⟩ : ∃ t : Fin cfg0.N, t.val = 9 * (i 0).val + 8 := ⟨⟨9 * (i 0).val + 8, by omega⟩, rfl⟩
  obtain ⟨e0, e1, e2⟩ := index2 t
  refine ⟨t, (flush0_2 t).mpr (by omega), ?_⟩
  show i ∈ ((View.whole main_v3).slice (win0_2.rect t)).set
  rw [View.set_slice_whole, Rect.mem_set_unit]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 1 ≤ (i 2).val ∧ (i 2).val < win0_2.index t (2 : Fin 3) * 1 + 1
    rw [e2]; omega

section Final
variable (perEntry : Dev nD → Fin 2 → EReal)
  (hlast : ∀ (c : Dev nD) (b : Fin 2) (h : 9 * b.val + 8 < cfg0.N), (outsAt0 m c (9 * b.val + 8) h).1 (ix3 0 0 0) = perEntry c b)
include hlast

/-- What a point that hands its tile back writes: the number of its entry. -/
theorem flushed_eq (c : Dev nD) (t : Fin cfg0.N) (hf : (cfg0.win 2).flush t = true) :
    (dats m 0 c).flushed 2 t = ((cfg0.win 2).blk t).view.read (Elt Ideal) (entries perEntry c) := by
  have hN : cfg0.N = 18 := N_0
  have h8 : t.val % 9 = 8 := (flush0_2 t).mp hf
  have hb : t.val / 9 < 2 := by have := t.isLt; omega
  have hn : 9 * (t.val / 9) + 8 < cfg0.N := by have := t.isLt; omega
  show (cfg0.win 2).cut (grid0.coords t) ((dats m 0 c).after 2 t) = _
  rw [after0_2]
  funext y
  rw [View.read_apply]
  show (outsAt0 m c t.val t.isLt).1 y = perEntry c ⟨(((((cfg0.win 2).blk t).view.emb y : S2x1x1.Idx) 0).val), _⟩
  rw [outsAt0_congr m c (show t.val = 9 * (t.val / 9) + 8 by omega) t.isLt hn]
  refine (congrArg (outsAt0 m c (9 * (t.val / 9) + 8) hn).1 (one_idx y)).trans ?_
  refine (hlast c ⟨t.val / 9, hb⟩ hn).trans ?_
  exact congrArg (perEntry c) (Fin.ext (emb_entry t y).symm)

/-- So the output array ends holding the two entries' numbers. -/
theorem final (c : Dev nD) : (dats m 0 c).arrAt 2 cfg0.N = entries perEntry c :=
  (dats m 0 c).arrAt_eq_of_cover 2 (entries perEntry c) (flushed_eq m perEntry hlast c) covered

/-- What follows the kernel: the two numbers summed from the zero word's value, divided by the word for two. -/
theorem tail_v5 (c : Dev nD) :
    Pipeline.afterTail₀ cfgs (dats m) 0 (V0 m) [hostOps1] c main_v5
      = Host.divf (F := Ideal) (fun _ => Cert.Chamfer.zero32 + (perEntry c 0 + perEntry c 1))
          (constant (F := Ideal) S_ .f32 0x40000000#32) := by
  unfold Pipeline.afterTail₀
  show StableHlo.after hostOps1 _ (Proc.devRef .tc main_v5) = _
  after_results
  refine congrArg (fun x => Host.divf (F := Ideal) x (constant (F := Ideal) S_ .f32 0x40000000#32)) ?_
  funext j
  refine (Ideal.hostReduceAdd_total reducesTo_S2x1x1_S_d0_1_2 (fun b => b.elim0) _ _ j).trans ?_
  refine congrArg (Cert.Chamfer.zero32 + ·) ?_
  rw [(Pipeline.withArrays_arr spec0 launch0.win.arr_inj c _ _ 2).trans (final m perEntry hlast c)]
  exact sum_two (entries perEntry c)

/-- The kernel program's run, read: the result from the entries' numbers, the two clouds unchanged. -/
theorem kernel_run :
    θ_run defs (onTc (τ := τ) (main (F := Ideal))) ⟨m, fun _ => 0, ρ⟩ (fun r => ∀ c : Dev nD,
      r.2.mem ((c.tc : Thread nD τ).loc main_v5)
          = Host.divf (F := Ideal) (fun _ => Cert.Chamfer.zero32 + (perEntry c 0 + perEntry c 1))
              (constant (F := Ideal) S_ .f32 0x40000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v5 (Pipeline.mem_restRefs_of main_v5 (by decide) (by decide))).trans (tail_v5 m perEntry hlast c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Final

end Cert.KernelIdeal.Arr

end
-- ==== Proof.KTrip.lean ====
/-
  One trip of the kernel's loop over the tiles of the second cloud, and the loop's state as a recursion.

  Trip `k` loads the slice of the second cloud's block that holds points 1024·k … 1024·k + 1023, and the
  matching slice of the running column minima. It yields the carried row minima combined with this tile's
  row minima, and stores, over that same slice of the column minima, what it loaded combined with this
  tile's column minima. So the state before trip `k + 1` is the state before trip `k` with one more carried
  value and one more store in front; what a trip loads back from the column minima is what the earlier
  trips left there.
-/
import proofs.«119021_j48292612276314_2_alg».proof.Proof.Gen.KernelIdeal.Loops

set_option maxRecDepth 16384

noncomputable section

namespace Cert.KernelIdeal.Loop

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The loop makes nine trips. -/
theorem trips_eq : k0_t1_loop.trips = 9 := by decide +kernel

section Trip

variable (𝒱 : Variants) (c : Dev nD) (bd : Option 𝒱.V) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (arg5 : Memref sig .tc .vmem S1x9216 .f32) (harg5 : arg5.IsWhole) (arg6 : Memref sig .tc .vmem S1x1 .f32) (harg6 : arg6.IsWhole)
  (v3 : Vec F S1x1024x3 .f32) (X : BufTy.Contents (Elt F) arg3.view.ty)

/-- The rectangle of the second cloud's block that trip `k` loads: all three coordinates of 1024 points. -/
abbrev tileRect (k : Fin k0_t1_loop.trips) : Rect S1x3x9216 :=
  Rect.unit (s := S1x3x9216) (k0_off1 k) S1x3x1024.size (k0_off1_inb k)

/-- The rectangle of the column minima that trip `k` loads and stores: the entries of the same 1024 points. -/
abbrev colRect (k : Fin k0_t1_loop.trips) : Rect S1x9216 :=
  Rect.unit (s := S1x9216) (k0_off2 k) S1x1024.size (k0_off2_inb k)

/-- The tile of the second cloud that trip `k` loads. -/
def tileOf (k : Fin k0_t1_loop.trips) : Vec F S1x3x1024 .f32 :=
  View.readAt (Elt F) arg3.view (tileRect k).toLoadRect X

/-- What a trip yields: the carried row minima combined with the row minima over its tile. -/
theorem tripR_eq (k : Fin k0_t1_loop.trips) (acc : FVec F S1024x1 .f32) (f : BufTy.Contents (Elt F) arg5.view.ty) :
    tripR_k0_t1 (F := F) 𝒱 c bd i arg2 harg2 arg3 harg3 arg4 harg4 arg5 harg5 arg6 harg6 v3 X k acc f = k0_pay5 v3 acc (tileOf arg3 X k) := by
  show (trip_k0_t1 (F := F) 𝒱 c bd i arg2 harg2 arg3 harg3 arg4 harg4 arg5 harg5 arg6 harg6 v3 X k).1 acc f = _
  unfold trip_k0_t1
  rfl

/-- What a trip stores: over its slice of the column minima, what it found there combined with the column
    minima over its tile. -/
theorem tripL_eq (k : Fin k0_t1_loop.trips) (acc : FVec F S1024x1 .f32) (f : BufTy.Contents (Elt F) arg5.view.ty) :
    tripL_k0_t1 (F := F) 𝒱 c bd i arg2 harg2 arg3 harg3 arg4 harg4 arg5 harg5 arg6 harg6 v3 X k acc f
      = [⟨colRect k, k0_pay6 v3 (tileOf arg3 X k) (View.readAt (Elt F) arg5.view (colRect k).toLoadRect f)⟩] := by
  show (trip_k0_t1 (F := F) 𝒱 c bd i arg2 harg2 arg3 harg3 arg4 harg4 arg5 harg5 arg6 harg6 v3 X k).2.1 acc f = _
  unfold trip_k0_t1
  rfl

variable (G : BufTy.Contents (Elt F) arg5.view.ty) (init : FVec F S1024x1 .f32)

/-- The loop's state before trip `k`: the carried row minima and the stores made so far, last first. -/
abbrev stAt (k : ℕ) : (FVec F S1024x1 .f32) × List (View.Piece (Elt F) S1x9216 .f32) :=
  st_k0_t1 (F := F) 𝒱 c bd i arg2 harg2 arg3 harg3 arg4 harg4 arg5 harg5 arg6 harg6 v3 X G init k

/-- Before the first trip: the initial carried value, nothing stored. -/
theorem stAt_zero : stAt 𝒱 c bd i arg2 harg2 arg3 harg3 arg4 harg4 arg5 harg5 arg6 harg6 v3 X G init 0 = (init, []) := rfl

/-- The carried value after trip `k`. -/
theorem stAt_succ_fst (k : Fin k0_t1_loop.trips) :
    (stAt 𝒱 c bd i arg2 harg2 arg3 harg3 arg4 harg4 arg5 harg5 arg6 harg6 v3 X G init (k.val + 1)).1
      = k0_pay5 v3 (stAt 𝒱 c bd i arg2 harg2 arg3 harg3 arg4 harg4 arg5 harg5 arg6 harg6 v3 X G init k.val).1 (tileOf arg3 X k) := by
  show (st_k0_t1 (F := F) 𝒱 c bd i arg2 harg2 arg3 harg3 arg4 harg4 arg5 harg5 arg6 harg6 v3 X G init (k.val + 1)).1 = _
  rw [st_k0_t1_succ, tripR_eq]

/-- The stores after trip `k`: the trip's one store in front of the earlier ones; it loaded back what they left. -/
theorem stAt_succ_snd (k : Fin k0_t1_loop.trips) :
    (stAt 𝒱 c bd i arg2 harg2 arg3 harg3 arg4 harg4 arg5 harg5 arg6 harg6 v3 X G init (k.val + 1)).2
      = ⟨colRect k, k0_pay6 v3 (tileOf arg3 X k)
            (View.readAt (Elt F) arg5.view (colRect k).toLoadRect
              (arg5.view.writes (Elt F) G (stAt 𝒱 c bd i arg2 harg2 arg3 harg3 arg4 harg4 arg5 harg5 arg6 harg6 v3 X G init k.val).2))⟩
          :: (stAt 𝒱 c bd i arg2 harg2 arg3 harg3 arg4 harg4 arg5 harg5 arg6 harg6 v3 X G init k.val).2 := by
  show (st_k0_t1 (F := F) 𝒱 c bd i arg2 harg2 arg3 harg3 arg4 harg4 arg5 harg5 arg6 harg6 v3 X G init (k.val + 1)).2 = _
  rw [st_k0_t1_succ, tripL_eq]
  rfl

end Trip

end Cert.KernelIdeal.Loop

end
-- ==== Proof.KDefs.lean ====
/-
  The quantities one grid step of the kernel works with, at the exact values.

  A step holds a block `u` of 1024 points of the first cloud, row by row, and the whole second cloud `w` of
  the batch entry, coordinate by coordinate. `blockDist u w r j` is the squared distance between row `r` of
  the block and point `j` of the second cloud. The step charges each of its rows the distance to its nearest
  point of the second cloud and adds those charges up (`rowSum`); and it lowers every entry of the running
  column minima `g` to the nearest of the block's rows (`colVal`). At the last step of an entry the column
  minima themselves are added up (`colSum`).
-/
import proofs.«119021_j48292612276314_2_alg».proof.Proof.Gen.KernelIdeal
import proofs.«119021_j48292612276314_2_alg».proof.Proof.Spec
import Idealize.ShloMosaic.Lib.ValueIdx

noncomputable section

namespace Cert.KernelIdeal.Loop

open Idealize.ShloMosaic Idealize.ShloMosaic.ValueIdx Cert.KernelIdeal Cert.Chamfer

/-- The squared distance between row `r` of a block `u` of the first cloud and point `j` of the second cloud
    `w` of the same batch entry, held coordinate by coordinate. -/
def blockDist (u : Vec Ideal S1x1024x3 .f32) (w : Vec Ideal S1x3x9216 .f32) (r : Fin 1024) (j : Fin 9216) : EReal :=
  ((u (ix3 0 r 0) - w (ix3 0 0 j)) * (u (ix3 0 r 0) - w (ix3 0 0 j))
      + (u (ix3 0 r 1) - w (ix3 0 1 j)) * (u (ix3 0 r 1) - w (ix3 0 1 j)))
    + (u (ix3 0 r 2) - w (ix3 0 2 j)) * (u (ix3 0 r 2) - w (ix3 0 2 j))

/-- What an entry of the column minima holds after a step: what it held before, combined with the minimum
    over the block's rows of their distances to that entry's point. -/
def colVal (u : Vec Ideal S1x1024x3 .f32) (w : Vec Ideal S1x3x9216 .f32) (g : Vec Ideal S1x9216 .f32)
    (y : S1x9216.Idx) : EReal :=
  min (g y) ((Finset.univ : Finset (Fin 1024)).fold min inf32 (fun r => blockDist u w r ⟨(y 1).val, idx2_lt1 y⟩))

/-- The charges of the block's rows, added up: each row's distance to its nearest point of the second cloud. -/
def rowSum (u : Vec Ideal S1x1024x3 .f32) (w : Vec Ideal S1x3x9216 .f32) : EReal :=
  ∑ r : Fin 1024, (Finset.univ : Finset (Fin 9216)).fold min inf32 (fun j => blockDist u w r j)

/-- The column minima after the step, added up. -/
def colSum (u : Vec Ideal S1x1024x3 .f32) (w : Vec Ideal S1x3x9216 .f32) (g : Vec Ideal S1x9216 .f32) : EReal :=
  ∑ j : Fin 9216, colVal u w g (ix2 0 j)

end Cert.KernelIdeal.Loop

end
-- ==== Proof.KPay.lean ====
/-
  The kernel body's arithmetic read one element at a time, over the extended reals.

  Each payload of the kernel is a short chain of vector operations. Read at one index, a pointwise operation
  is the same operation on the operands' elements at that index; a change of shape, a slice or a broadcast
  reads its operand at one index that the coordinates name; a reduction over one axis is a sum or a fold of
  `min` over that axis's coordinates. Chained, these give each payload's element in closed form: the squared
  distance between a point of the first tile and a point of the second, its minimum over a row or a column of
  the tile, and the running totals.
-/
import proofs.«119021_j48292612276314_2_alg».proof.Proof.Gen.KernelIdeal.Skeleton
import proofs.«119021_j48292612276314_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Cert.Chamfer Idealize.ShloMosaic Idealize.ShloMosaic.ValueIdx

/-! ## Shape changes and reductions at explicit coordinates -/

section Layout
variable {α : Type}

/-- A vector of length `a` viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing a matrix along its columns: the index over row `r` with column `q` put back is `(r, q)`. -/
theorem lift_axis1 {a b : ℕ} (h : (⟨2, ![a, b]⟩ : Shape).Reduces [1] ⟨1, ![a]⟩) (r : Fin a) (q : Fin b) :
    h.lift (ix1 r) q = ix2 r q := by
  funext c
  match c with
  | ⟨0, _⟩ => exact Fin.ext rfl
  | ⟨1, _⟩ => exact Fin.ext rfl

/-- Reducing a matrix along its rows: the index over column `q` with row `r` put back is `(r, q)`. -/
theorem lift_axis0 {a b : ℕ} (h : (⟨2, ![a, b]⟩ : Shape).Reduces [0] ⟨1, ![b]⟩) (q : Fin b) (r : Fin a) :
    h.lift (ix1 q) r = ix2 r q := by
  funext c
  match c with
  | ⟨0, _⟩ => exact Fin.ext rfl
  | ⟨1, _⟩ => exact Fin.ext rfl

end Layout

/-- A minimum-reduction over one axis, over the extended reals: the fold of `min` from the starting word's value
    over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## The constant payloads -/

theorem pay1_apply (i : S1x9216.Idx) : k0_pay1 (F := Ideal) i = inf32 := rfl

theorem pay2_apply (i : S1x1.Idx) : k0_pay2 (F := Ideal) i = zero32 := rfl

theorem pay3_apply (i : S1024x1.Idx) : k0_pay3 (F := Ideal) i = inf32 := rfl

/-! ## The stored result -/

theorem pay9_apply (v21 : Vec Ideal S1x1 .f32) : k0_pay9 (F := Ideal) v21 (ix3 0 0 0) = v21 (ix2 0 0) :=
  shapeCast_ab_1ab_apply v21 shapeCasts_S1x1_S1x1x1 0 0 0

/-! ## The running totals -/

theorem pay7_apply (v10 : FVec Ideal S1024x1 .f32) (v11 : Vec Ideal S1x1 .f32) :
    k0_pay7 (F := Ideal) v10 v11 (ix2 0 0) = v11 (ix2 0 0) + ∑ r : Fin 1024, v10 (ix2 r 0) := by
  unfold k0_pay7
  dsimp only
  rw [shapeCast_self]
  refine congrArg (v11 (ix2 0 0) + ·) ?_
  refine (shapeCast_a_1a_apply _ shapeCasts_S1_S1x1 0 0).trans ?_
  refine (Ideal.multiReduction_add_single v10 _ reduces_S1024x1_S1 _ _ _).trans ?_
  exact Finset.sum_congr rfl fun r _ => congrArg v10 (lift_axis0 reduces_S1024x1_S1 0 r)

theorem pay8_apply (v25 : Vec Ideal S1x1 .f32) (v26 : Vec Ideal S1x9216 .f32) :
    k0_pay8 (F := Ideal) v25 v26 (ix2 0 0) = v25 (ix2 0 0) + ∑ j : Fin 9216, v26 (ix2 0 j) := by
  unfold k0_pay8
  dsimp only
  rw [shapeCast_self]
  refine congrArg (v25 (ix2 0 0) + ·) ?_
  refine (shapeCast_a_1a_apply _ shapeCasts_S1_S1x1 0 0).trans ?_
  refine (Ideal.multiReduction_add_single v26 _ reduces_S1x9216_S1 _ _ _).trans ?_
  exact Finset.sum_congr rfl fun j _ => congrArg v26 (lift_axis1 reduces_S1x9216_S1 0 j)

/-! ## The tile of squared distances and its row and column minima -/

/-- Coordinate `k` of the first tile's point `r`, spread along row `r` of the square tile: the tile viewed as a
    matrix of points by coordinates, its column `k` cut out, and that column repeated across the columns. -/
theorem col_read {α : Type} (u : S1x1024x3.Idx → α) (o : ℕ) (k : Fin 3) (hk : k.val = o)
    (hs : S1024x3.Slices ![0, o] S1024x1) (r q : Fin 1024) :
    broadcastTo S1024x1024 (extractStridedSlice S1024x1 ![0, o] (shapeCast S1024x3 u shapeCasts_S1x1024x3_S1024x3) hs)
        broadcasts_S1024x1_S1024x1024 (ix2 r q) = u (ix3 0 r k) := by
  refine (broadcastTo_a1_ab_apply _ _ r q).trans ?_
  refine (slice2_axis1_apply o _ hs r 0 k (by rw [hk]; rfl)).trans ?_
  exact shapeCast_1ab_ab_apply u _ r k

/-- Coordinate `k` of the second tile's point `q`, spread along column `q` of the square tile: the tile viewed as a
    matrix of coordinates by points, its row `k` cut out, and that row repeated down the rows. -/
theorem row_read {α : Type} (w : S1x3x1024.Idx → α) (o : ℕ) (k : Fin 3) (hk : k.val = o)
    (hs : S3x1024.Slices ![o, 0] S1x1024) (r q : Fin 1024) :
    broadcastTo S1024x1024 (extractStridedSlice S1x1024 ![o, 0] (shapeCast S3x1024 w shapeCasts_S1x3x1024_S3x1024) hs)
        broadcasts_S1x1024_S1024x1024 (ix2 r q) = w (ix3 0 k q) := by
  refine (broadcastTo_1b_ab_apply _ _ r q).trans ?_
  refine (slice2_axis0_apply o _ hs 0 q k (by rw [hk]; rfl)).trans ?_
  exact shapeCast_1ab_ab_apply w _ k q

theorem pay4_apply (v3 : Vec Ideal S1x1024x3 .f32) (v28 : Vec Ideal S1x3x1024 .f32) (r q : Fin 1024) :
    k0_pay4 (F := Ideal) v3 v28 (ix2 r q) = tileDist v3 v28 r q := by
  unfold k0_pay4 tileDist
  simp only [addf_apply, mulf_apply, subf_apply]
  rw [col_read v3 0 0 rfl, col_read v3 1 1 rfl, col_read v3 2 2 rfl,
    row_read v28 0 0 rfl, row_read v28 1 1 rfl, row_read v28 2 2 rfl]

theorem pay5_apply (v3 : Vec Ideal S1x1024x3 .f32) (arg8 : FVec Ideal S1024x1 .f32) (v28 : Vec Ideal S1x3x1024 .f32) (r : Fin 1024) :
    k0_pay5 (F := Ideal) v3 arg8 v28 (ix2 r 0)
      = min (arg8 (ix2 r 0)) ((Finset.univ : Finset (Fin 1024)).fold min inf32 (fun q => tileDist v3 v28 r q)) := by
  unfold k0_pay5
  rw [minimumf_apply]
  refine congrArg (min (arg8 (ix2 r 0))) ?_
  refine (shapeCast_a_a1_apply _ shapeCasts_S1024_S1024x1 r 0).trans ?_
  refine (multiReduction_minimumf_single (k0_pay4 v3 v28) _ reduces_S1024x1024_S1024 _ _ _).trans ?_
  refine congrArg (fun f => (Finset.univ : Finset (Fin 1024)).fold min inf32 f) ?_
  funext q
  exact (congrArg (k0_pay4 v3 v28) (lift_axis1 reduces_S1024x1024_S1024 r q)).trans (pay4_apply v3 v28 r q)

theorem pay6_apply (v3 : Vec Ideal S1x1024x3 .f32) (v28 : Vec Ideal S1x3x1024 .f32) (v53 : Vec Ideal S1x1024 .f32) (q : Fin 1024) :
    k0_pay6 (F := Ideal) v3 v28 v53 (ix2 0 q)
      = min (v53 (ix2 0 q)) ((Finset.univ : Finset (Fin 1024)).fold min inf32 (fun r => tileDist v3 v28 r q)) := by
  unfold k0_pay6
  rw [shapeCast_self, minimumf_apply]
  refine congrArg (min (v53 (ix2 0 q))) ?_
  refine (shapeCast_a_1a_apply _ shapeCasts_S1024_S1x1024 0 q).trans ?_
  refine (multiReduction_minimumf_single (k0_pay4 v3 v28) _ reduces_S1024x1024_S1024_2 _ _ _).trans ?_
  refine congrArg (fun f => (Finset.univ : Finset (Fin 1024)).fold min inf32 f) ?_
  funext r
  exact (congrArg (k0_pay4 v3 v28) (lift_axis0 reduces_S1024x1024_S1024_2 q r)).trans (pay4_apply v3 v28 r q)

/-! ## The same readings at an arbitrary index

A shape with an axis of extent one has only the coordinate `0` there, so each reading above holds at every index
of its payload; the coordinate on the long axis is the index's own. -/

/-- The one index of the `[1, 1]` shape. -/
theorem eq_ix2_00 (i : S1x1.Idx) : i = ix2 0 0 := by
  funext a
  match a with
  | ⟨0, _⟩ => exact Fin.ext (Nat.lt_one_iff.mp (i _).isLt)
  | ⟨1, _⟩ => exact Fin.ext (Nat.lt_one_iff.mp (i _).isLt)

/-- The one index of the `[1, 1, 1]` shape. -/
theorem eq_ix3_000 (i : S1x1x1.Idx) : i = ix3 0 0 0 := by
  funext a
  match a with
  | ⟨0, _⟩ => exact Fin.ext (Nat.lt_one_iff.mp (i _).isLt)
  | ⟨1, _⟩ => exact Fin.ext (Nat.lt_one_iff.mp (i _).isLt)
  | ⟨2, _⟩ => exact Fin.ext (Nat.lt_one_iff.mp (i _).isLt)

/-- An index of the column shape `[1024, 1]` is its row and `0`. -/
theorem eq_ix2_r0 (i : S1024x1.Idx) : i = ix2 (⟨(i 0).val, idx2_lt0 i⟩ : Fin 1024) 0 := by
  funext a
  match a with
  | ⟨0, _⟩ => rfl
  | ⟨1, _⟩ => exact Fin.ext (Nat.lt_one_iff.mp (i _).isLt)

/-- An index of the row shape `[1, 1024]` is `0` and its column. -/
theorem eq_ix2_0q (i : S1x1024.Idx) : i = ix2 0 (⟨(i 1).val, idx2_lt1 i⟩ : Fin 1024) := by
  funext a
  match a with
  | ⟨0, _⟩ => exact Fin.ext (Nat.lt_one_iff.mp (i _).isLt)
  | ⟨1, _⟩ => rfl

theorem pay7_apply' (v10 : FVec Ideal S1024x1 .f32) (v11 : Vec Ideal S1x1 .f32) (i : S1x1.Idx) :
    k0_pay7 (F := Ideal) v10 v11 i = v11 i + ∑ r : Fin 1024, v10 (ix2 r 0) := by
  rw [eq_ix2_00 i]; exact pay7_apply v10 v11

theorem pay8_apply' (v25 : Vec Ideal S1x1 .f32) (v26 : Vec Ideal S1x9216 .f32) (i : S1x1.Idx) :
    k0_pay8 (F := Ideal) v25 v26 i = v25 i + ∑ j : Fin 9216, v26 (ix2 0 j) := by
  rw [eq_ix2_00 i]; exact pay8_apply v25 v26

theorem pay9_apply' (v21 : Vec Ideal S1x1 .f32) (i : S1x1x1.Idx) : k0_pay9 (F := Ideal) v21 i = v21 (ix2 0 0) := by
  rw [eq_ix3_000 i]; exact pay9_apply v21

theorem pay5_apply' (v3 : Vec Ideal S1x1024x3 .f32) (arg8 : FVec Ideal S1024x1 .f32) (v28 : Vec Ideal S1x3x1024 .f32)
    (i : S1024x1.Idx) :
    k0_pay5 (F := Ideal) v3 arg8 v28 i
      = min (arg8 i) ((Finset.univ : Finset (Fin 1024)).fold min inf32
          (fun q => tileDist v3 v28 (⟨(i 0).val, idx2_lt0 i⟩ : Fin 1024) q)) := by
  obtain ⟨r, rfl⟩ : ∃ r : Fin 1024, i = ix2 r 0 := ⟨_, eq_ix2_r0 i⟩
  exact pay5_apply v3 arg8 v28 r

theorem pay6_apply' (v3 : Vec Ideal S1x1024x3 .f32) (v28 : Vec Ideal S1x3x1024 .f32) (v53 : Vec Ideal S1x1024 .f32)
    (i : S1x1024.Idx) :
    k0_pay6 (F := Ideal) v3 v28 v53 i
      = min (v53 i) ((Finset.univ : Finset (Fin 1024)).fold min inf32
          (fun r => tileDist v3 v28 r (⟨(i 1).val, idx2_lt1 i⟩ : Fin 1024))) := by
  obtain ⟨q, rfl⟩ : ∃ q : Fin 1024, i = ix2 0 q := ⟨_, eq_ix2_0q i⟩
  exact pay6_apply v3 v28 v53 q

end Cert.KernelIdeal.Pay

end
-- ==== Proof.MinFold.lean ====
/-
  Running minima over a prefix of 9216 indices, and how a prefix grows by one tile of 1024.

  `minUpTo n f` is the fold of `min`, from the value of the plus-infinity word, over the indices below `n`.
  A number is below such a fold exactly when it is below the starting value and below every entry folded:
  that one property gives the three laws used later — the empty prefix is the starting value, the full prefix
  is the fold over every index, and folding one more tile of 1024 consecutive indices (itself started from the
  same value) and combining by `min` is the fold over the longer prefix. The starting value is never
  evaluated: `min` is idempotent, so it may be folded in any number of times.
-/
import proofs.«119021_j48292612276314_2_alg».proof.Proof.Spec

noncomputable section

namespace Cert.Chamfer

/-- The running minimum of `f` over the indices below `n`, started from the plus-infinity word's value. -/
def minUpTo (n : ℕ) (f : Fin 9216 → EReal) : EReal :=
  (Finset.univ.filter (fun j : Fin 9216 => j.val < n)).fold min inf32 f

/-- What it means to be below a running minimum. -/
theorem le_minUpTo_iff (n : ℕ) (f : Fin 9216 → EReal) (c : EReal) :
    c ≤ minUpTo n f ↔ c ≤ inf32 ∧ ∀ j : Fin 9216, j.val < n → c ≤ f j := by
  unfold minUpTo
  rw [Finset.le_fold_min]
  simp only [Finset.mem_filter, Finset.mem_univ, true_and]

/-- Over no index at all it is the starting value. -/
theorem minUpTo_zero (f : Fin 9216 → EReal) : minUpTo 0 f = inf32 := by
  refine eq_of_forall_le_iff fun c => ?_
  rw [le_minUpTo_iff]
  exact ⟨fun h => h.1, fun h => ⟨h, fun j hj => absurd hj (Nat.not_lt_zero _)⟩⟩

/-- Over every index it is the fold over all of them. -/
theorem minUpTo_all (f : Fin 9216 → EReal) :
    minUpTo 9216 f = (Finset.univ : Finset (Fin 9216)).fold min inf32 f := by
  refine eq_of_forall_le_iff fun c => ?_
  rw [le_minUpTo_iff, Finset.le_fold_min]
  exact ⟨fun h => ⟨h.1, fun j _ => h.2 j j.isLt⟩, fun h => ⟨h.1, fun j _ => h.2 j (Finset.mem_univ j)⟩⟩

/-- One more tile: the running minimum below `n`, combined with the minimum over the 1024 indices from `n` on
    (itself started from the same value), is the running minimum below `n + 1024`. -/
theorem minUpTo_add_tile (n : ℕ) (hn : n + 1024 ≤ 9216) (f : Fin 9216 → EReal) :
    min (minUpTo n f)
        ((Finset.univ : Finset (Fin 1024)).fold min inf32 (fun q => f ⟨n + q.val, by have := q.isLt; omega⟩))
      = minUpTo (n + 1024) f := by
  refine eq_of_forall_le_iff fun c => ?_
  rw [le_min_iff, le_minUpTo_iff, le_minUpTo_iff, Finset.le_fold_min]
  constructor
  · rintro ⟨⟨h0, h1⟩, -, h2⟩
    refine ⟨h0, fun j hj => ?_⟩
    by_cases hlt : j.val < n
    · exact h1 j hlt
    · have hq : j.val - n < 1024 := by omega
      have e : j = ⟨n + (⟨j.val - n, hq⟩ : Fin 1024).val, by have := j.isLt; show n + (j.val - n) < 9216; omega⟩ :=
        Fin.ext (by show j.val = n + (j.val - n); omega)
      rw [e]
      exact h2 ⟨j.val - n, hq⟩ (Finset.mem_univ _)
  · rintro ⟨h0, h1⟩
    exact ⟨⟨h0, fun j hj => h1 j (by omega)⟩, h0, fun q _ => h1 _ (by show n + q.val < n + 1024; have := q.isLt; omega)⟩

/-- The same with the starting value in the running minimum's place: the first tile. -/
theorem minUpTo_first_tile (f : Fin 9216 → EReal) :
    min inf32 ((Finset.univ : Finset (Fin 1024)).fold min inf32 (fun q => f ⟨0 + q.val, by have := q.isLt; omega⟩))
      = minUpTo (0 + 1024) f := by
  rw [← minUpTo_zero f]
  exact minUpTo_add_tile 0 (by omega) f

end Cert.Chamfer

end
-- ==== Proof.KLoop.lean ====
/-
  What the kernel's loop over the tiles of the second cloud computes, at the exact values.

  Inside one grid step the kernel holds a block `u` of 1024 points of the first cloud and the whole second
  cloud `w` of the batch entry, coordinate by coordinate. The distance between row `r` of the block and point
  `j` of the second cloud is the sum of the three squared coordinate differences. Trip `k` works on the points
  1024·k … 1024·k + 1023 of the second cloud. After `k` trips the carried value at row `r` is the running
  minimum of the distances from row `r` to the points below 1024·k; and every store made so far lies on the
  slice of an earlier trip and holds there, entry by entry, what the column minima held when the loop was
  entered combined with the minimum over the block's 1024 rows of the distances to that point — a trip only
  loads back entries that no earlier trip has stored. Read back after the ninth trip, the column minima are
  that one function at every entry the stores cover.
-/
import proofs.«119021_j48292612276314_2_alg».proof.Proof.KTrip
import proofs.«119021_j48292612276314_2_alg».proof.Proof.KDefs
import proofs.«119021_j48292612276314_2_alg».proof.Proof.KPay
import proofs.«119021_j48292612276314_2_alg».proof.Proof.MinFold
import Idealize.ShloMosaic.Lib.ValueIdx
import Idealize.ShloMosaic.Lib.Pipeline.Value

set_option maxRecDepth 16384

noncomputable section

namespace Cert.KernelIdeal.Loop

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Chamfer Cert.KernelIdeal.Pay

section Loop

variable (𝒱 : Variants) (c : Dev nD) (bd : Option 𝒱.V) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (arg5 : Memref sig .tc .vmem S1x9216 .f32) (harg5 : arg5.IsWhole) (arg6 : Memref sig .tc .vmem S1x1 .f32) (harg6 : arg6.IsWhole)
  (v3 : Vec Ideal S1x1024x3 .f32) (X : BufTy.Contents (Elt Ideal) arg3.view.ty)
  (G : BufTy.Contents (Elt Ideal) arg5.view.ty)

/-- The tile trip `k` loads, read at a coordinate and a point: the second cloud at point 1024·k + q. -/
theorem tileOf_apply (k : Fin k0_t1_loop.trips) (cc : Fin 3) (q : Fin 1024) (h : 1024 * k.val + q.val < 9216) :
    tileOf arg3 X k (ix3 0 cc q) = arg3.view.read (Elt Ideal) X (ix3 0 cc ⟨1024 * k.val + q.val, h⟩) := by
  unfold tileOf
  rw [View.readAt_apply]
  refine congrArg _ (funext fun a => Fin.ext ?_)
  have e := k0_off1_eq k
  match a with
  | ⟨0, _⟩ => show (k0_off1 k) (0 : Fin 3) + 1 * (0 : Fin 1).val = 0; rw [e]; simp
  | ⟨1, _⟩ => show (k0_off1 k) (1 : Fin 3) + 1 * cc.val = cc.val; rw [e]; simp
  | ⟨2, _⟩ => show (k0_off1 k) (2 : Fin 3) + 1 * q.val = 1024 * k.val + q.val; rw [e]; simp

/-- So the distance inside a tile is the distance to the second cloud's point 1024·k + q. -/
theorem tileDist_eq (k : Fin k0_t1_loop.trips) (r q : Fin 1024) (h : 1024 * k.val + q.val < 9216) :
    tileDist v3 (tileOf arg3 X k) r q = blockDist v3 (arg3.view.read (Elt Ideal) X) r ⟨1024 * k.val + q.val, h⟩ := by
  unfold tileDist blockDist
  rw [tileOf_apply arg3 X k 0 q h, tileOf_apply arg3 X k 1 q h, tileOf_apply arg3 X k 2 q h]

/-- A trip index is below nine. -/
theorem trip_lt (k : Fin k0_t1_loop.trips) : k.val < 9 := lt_of_lt_of_eq k.isLt trips_eq

/-- After `k` trips the carried value at row `r` is the running minimum of the distances from row `r` to the
    points below 1024·k. -/
theorem carried_apply (k : ℕ) (hk : k ≤ 9) (r : Fin 1024) :
    (stAt 𝒱 c bd i arg2 harg2 arg3 harg3 arg4 harg4 arg5 harg5 arg6 harg6 v3 X G (k0_pay3 (F := Ideal)) k).1 (ix2 r 0)
      = minUpTo (1024 * k) (fun j => blockDist v3 (arg3.view.read (Elt Ideal) X) r j) := by
  induction k with
  | zero =>
    show (k0_pay3 (F := Ideal)) (ix2 r 0) = _
    rw [pay3_apply, Nat.mul_zero, minUpTo_zero]
  | succ k ih =>
    have hk' : k < k0_t1_loop.trips := by rw [trips_eq]; omega
    have hs := stAt_succ_fst 𝒱 c bd i arg2 harg2 arg3 harg3 arg4 harg4 arg5 harg5 arg6 harg6 v3 X G (k0_pay3 (F := Ideal)) ⟨k, hk'⟩
    rw [show k + 1 = (⟨k, hk'⟩ : Fin k0_t1_loop.trips).val + 1 from rfl, hs, pay5_apply]
    show min ((stAt 𝒱 c bd i arg2 harg2 arg3 harg3 arg4 harg4 arg5 harg5 arg6 harg6 v3 X G (k0_pay3 (F := Ideal)) k).1 (ix2 r 0)) _ = _
    rw [ih (by omega)]
    have hf : (fun q : Fin 1024 => tileDist v3 (tileOf arg3 X ⟨k, hk'⟩) r q)
        = fun q : Fin 1024 => (fun j => blockDist v3 (arg3.view.read (Elt Ideal) X) r j)
            ⟨1024 * k + q.val, by have := q.isLt; omega⟩ :=
      funext fun q => tileDist_eq arg3 v3 X ⟨k, hk'⟩ r q (by have := q.isLt; show 1024 * k + q.val < 9216; omega)
    rw [hf, show 1024 * (k + 1) = 1024 * k + 1024 from by ring]
    exact minUpTo_add_tile (1024 * k) (by omega) _

/-- Every store made in the first `k` trips lies on an earlier trip's slice and holds, entry by entry, the one
    function `colVal` of the entry's place in the buffer. -/
theorem pieces_inv (k : ℕ) (hk : k ≤ 9) :
    ∀ p ∈ (stAt 𝒱 c bd i arg2 harg2 arg3 harg3 arg4 harg4 arg5 harg5 arg6 harg6 v3 X G (k0_pay3 (F := Ideal)) k).2,
      (∃ k' : Fin k0_t1_loop.trips, k'.val < k ∧ p.1 = colRect k')
        ∧ ∀ x : p.1.shape.Idx, p.2 x
            = colVal v3 (arg3.view.read (Elt Ideal) X) (arg5.view.read (Elt Ideal) G) (p.1.emb x) := by
  induction k with
  | zero => intro p hp; exact absurd hp List.not_mem_nil
  | succ k ih =>
    have hk' : k < k0_t1_loop.trips := by rw [trips_eq]; omega
    have hs := stAt_succ_snd 𝒱 c bd i arg2 harg2 arg3 harg3 arg4 harg4 arg5 harg5 arg6 harg6 v3 X G (k0_pay3 (F := Ideal)) ⟨k, hk'⟩
    intro p hp
    rw [show k + 1 = (⟨k, hk'⟩ : Fin k0_t1_loop.trips).val + 1 from rfl, hs] at hp
    rcases List.mem_cons.mp hp with rfl | hp'
    · refine ⟨⟨⟨k, hk'⟩, Nat.lt_succ_self k, rfl⟩, fun x => ?_⟩
      obtain ⟨q, rfl⟩ : ∃ q : Fin 1024, x = ix2 0 q := ⟨_, eq_ix2_0q x⟩
      have hq := q.isLt
      have e2 := k0_off2_eq ⟨k, hk'⟩
      -- where the entry lies in the buffer
      have hy1 : (((colRect ⟨k, hk'⟩).emb (ix2 0 q)) 1).val = 1024 * k + q.val := by
        show (k0_off2 ⟨k, hk'⟩) (1 : Fin 2) + 1 * q.val = 1024 * k + q.val
        rw [e2]; simp
      show k0_pay6 v3 (tileOf arg3 X ⟨k, hk'⟩) _ (ix2 0 q) = _
      rw [pay6_apply]
      unfold colVal
      congr 1
      · -- what the trip loads back is what the buffer held at loop entry: no earlier store covers it
        rw [View.readAt_apply]
        refine View.read_writes_apply_of_forall_not_mem _ _ _ _ fun p' hp'' hmem => ?_
        obtain ⟨⟨k', hk'lt, e⟩, -⟩ := ih (by omega) p' hp''
        rw [e] at hmem
        have h1 : (k0_off2 k') (1 : Fin 2) ≤ (((colRect ⟨k, hk'⟩).toLoadRect.idx (ix2 0 q)) (1 : Fin 2)).val
            ∧ (((colRect ⟨k, hk'⟩).toLoadRect.idx (ix2 0 q)) (1 : Fin 2)).val < (k0_off2 k') (1 : Fin 2) + 1024 :=
          (Rect.mem_set_unit.mp hmem) 1
        have ek' : (k0_off2 k') (1 : Fin 2) = 1024 * k'.val := by rw [k0_off2_eq k']; simp
        have hv : (((colRect ⟨k, hk'⟩).toLoadRect.idx (ix2 0 q)) (1 : Fin 2)).val = 1024 * k + q.val := hy1
        rw [ek', hv] at h1
        omega
      · refine congrArg (fun f => Finset.fold min inf32 f Finset.univ) (funext fun r => ?_)
        rw [tileDist_eq arg3 v3 X ⟨k, hk'⟩ r q (by show 1024 * k + q.val < 9216; omega)]
        exact congrArg _ (Fin.ext hy1.symm)
    · obtain ⟨⟨k', hk'lt, e⟩, h2⟩ := ih (by omega) p hp'
      exact ⟨⟨k', by omega, e⟩, h2⟩

/-- After `k` trips the store of every earlier trip is there. -/
theorem pieces_exist (k : ℕ) (hk : k ≤ 9) (k' : Fin k0_t1_loop.trips) (h : k'.val < k) :
    ∃ p ∈ (stAt 𝒱 c bd i arg2 harg2 arg3 harg3 arg4 harg4 arg5 harg5 arg6 harg6 v3 X G (k0_pay3 (F := Ideal)) k).2, p.1 = colRect k' := by
  induction k with
  | zero => exact absurd h (Nat.not_lt_zero _)
  | succ k ih =>
    have hk' : k < k0_t1_loop.trips := by rw [trips_eq]; omega
    have hs := stAt_succ_snd 𝒱 c bd i arg2 harg2 arg3 harg3 arg4 harg4 arg5 harg5 arg6 harg6 v3 X G (k0_pay3 (F := Ideal)) ⟨k, hk'⟩
    rw [show k + 1 = (⟨k, hk'⟩ : Fin k0_t1_loop.trips).val + 1 from rfl, hs]
    by_cases he : k'.val = k
    · obtain rfl : k' = ⟨k, hk'⟩ := Fin.ext he
      exact ⟨_, List.mem_cons_self, rfl⟩
    · obtain ⟨p, hp, e⟩ := ih (by omega) (by omega)
      exact ⟨p, List.mem_cons_of_mem _ hp, e⟩

/-- After the ninth trip the stores cover the column minima: entry `y` lies on the slice of trip `y / 1024`. -/
theorem cover_all (n : ℕ) (hn : n = 9) (y : S1x9216.Idx) :
    ∃ p ∈ (stAt 𝒱 c bd i arg2 harg2 arg3 harg3 arg4 harg4 arg5 harg5 arg6 harg6 v3 X G (k0_pay3 (F := Ideal)) n).2, y ∈ p.1.set := by
  subst hn
  have hy0 : (y (0 : Fin 2)).val < 1 := idx2_lt0 y
  have hy1 : (y (1 : Fin 2)).val < 9216 := idx2_lt1 y
  have hk' : (y (1 : Fin 2)).val / 1024 < k0_t1_loop.trips := by rw [trips_eq]; omega
  obtain ⟨p, hp, e⟩ := pieces_exist 𝒱 c bd i arg2 harg2 arg3 harg3 arg4 harg4 arg5 harg5 arg6 harg6 v3 X G 9 le_rfl ⟨(y (1 : Fin 2)).val / 1024, hk'⟩ (by show (y (1 : Fin 2)).val / 1024 < 9; omega)
  refine ⟨p, hp, ?_⟩
  rw [e, Rect.mem_set_unit]
  have e2 := k0_off2_eq ⟨(y (1 : Fin 2)).val / 1024, hk'⟩
  intro a
  match a with
  | ⟨0, _⟩ =>
    show (k0_off2 ⟨(y (1 : Fin 2)).val / 1024, hk'⟩) (0 : Fin 2) ≤ (y (0 : Fin 2)).val
      ∧ (y (0 : Fin 2)).val < (k0_off2 ⟨(y (1 : Fin 2)).val / 1024, hk'⟩) (0 : Fin 2) + 1
    rw [e2]; simp; omega
  | ⟨1, _⟩ =>
    show (k0_off2 ⟨(y (1 : Fin 2)).val / 1024, hk'⟩) (1 : Fin 2) ≤ (y (1 : Fin 2)).val
      ∧ (y (1 : Fin 2)).val < (k0_off2 ⟨(y (1 : Fin 2)).val / 1024, hk'⟩) (1 : Fin 2) + 1024
    rw [e2]; simp; omega

/-- Read back after the last trip, the column minima are `colVal` at every entry. -/
theorem canon_cols (n : ℕ) (hn : n = 9) (y : S1x9216.Idx) :
    View.canon (stAt 𝒱 c bd i arg2 harg2 arg3 harg3 arg4 harg4 arg5 harg5 arg6 harg6 v3 X G (k0_pay3 (F := Ideal)) n).2 y
      = colVal v3 (arg3.view.read (Elt Ideal) X) (arg5.view.read (Elt Ideal) G) y := by
  have hcov := cover_all 𝒱 c bd i arg2 harg2 arg3 harg3 arg4 harg4 arg5 harg5 arg6 harg6 v3 X G n hn y
  subst hn
  exact View.canon_apply_of_pieces _ _ (fun p hp => (pieces_inv 𝒱 c bd i arg2 harg2 arg3 harg3 arg4 harg4 arg5 harg5 arg6 harg6 v3 X G 9 le_rfl p hp).2) y hcov

/-- So the buffer itself, after the loop's stores over any start contents, holds `colVal` at every entry. -/
theorem read_cols (n : ℕ) (hn : n = 9) (y : S1x9216.Idx) :
    arg5.view.read (Elt Ideal) (arg5.view.writes (Elt Ideal) G (stAt 𝒱 c bd i arg2 harg2 arg3 harg3 arg4 harg4 arg5 harg5 arg6 harg6 v3 X G (k0_pay3 (F := Ideal)) n).2) y
      = colVal v3 (arg3.view.read (Elt Ideal) X) (arg5.view.read (Elt Ideal) G) y := by
  rw [View.read_writes_apply_eq_canon _ _ _ _ (cover_all 𝒱 c bd i arg2 harg2 arg3 harg3 arg4 harg4 arg5 harg5 arg6 harg6 v3 X G n hn y)]
  exact canon_cols 𝒱 c bd i arg2 harg2 arg3 harg3 arg4 harg4 arg5 harg5 arg6 harg6 v3 X G n hn y

/-- After the last trip the carried value at row `r` is the minimum of the distances from row `r` to every point
    of the second cloud. -/
theorem carried_final (n : ℕ) (hn : n = 9) (r : Fin 1024) :
    (stAt 𝒱 c bd i arg2 harg2 arg3 harg3 arg4 harg4 arg5 harg5 arg6 harg6 v3 X G (k0_pay3 (F := Ideal)) n).1 (ix2 r 0)
      = (Finset.univ : Finset (Fin 9216)).fold min inf32 (fun j => blockDist v3 (arg3.view.read (Elt Ideal) X) r j) := by
  subst hn
  rw [carried_apply 𝒱 c bd i arg2 harg2 arg3 harg3 arg4 harg4 arg5 harg5 arg6 harg6 v3 X G 9 le_rfl r, show 1024 * 9 = 9216 from rfl, minUpTo_all]

end Loop

end Cert.KernelIdeal.Loop

end
-- ==== Proof.KCases.lean ====
/-
  What each of the three kinds of grid step leaves behind, at the exact values.

  The first step of a batch entry starts the column minima from the plus-infinity word and the running total
  from the zero word; a middle step continues from what the step before left; the last step continues likewise
  and then adds the column minima, now complete, to the total. In every case the column minima are lowered to
  the nearest of this step's rows, the total grows by the charges of this step's rows, and the output block
  holds the total. Each step's stores are read once off the step's run: the loop's nine stores into the column
  minima, one or two stores into the running total, one store into the output block.
-/
import proofs.«119021_j48292612276314_2_alg».proof.Proof.Gen.KernelIdeal.Frame
import proofs.«119021_j48292612276314_2_alg».proof.Proof.KLoop

set_option maxRecDepth 16384

noncomputable section

namespace Cert.KernelIdeal.Cases

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Chamfer Cert.KernelIdeal.Pay Cert.KernelIdeal.Loop

theorem hz2 : (![0, 0] : Fin 2 → Nat) = fun _ => 0 := funext fun a => by fin_cases a <;> rfl
theorem hz3 : (![0, 0, 0] : Fin 3 → Nat) = fun _ => 0 := funext fun a => by fin_cases a <;> rfl

/-- A whole-buffer load of a buffer that holds `x` reads `x`: the block of the first cloud. -/
theorem load_block (arg2 : Memref sig .tc .vmem S1x1024x3 .f32) (harg2 : arg2.IsWhole) (x0 : Vec Ideal S1x1024x3 .f32) :
    (View.readAt (Elt Ideal) arg2.view (Rect.unit (s := S1x1024x3) ![0, 0, 0] S1x1024x3.size inb_S1x1024x3_S1x1024x3_0_0_0).toLoadRect (harg2.unread x0)) = x0 := by
  rw [View.readAt_eq_ld, harg2.read_unread, View.ld_unit_zero (S := S1x1024x3) hz3]

/-- The same for the running total. -/
theorem load_total (h6 : scM0_1.IsWhole) (xs1 : Vec Ideal S1x1 .f32) : (View.readAt (Elt Ideal) scM0_1.view (Rect.unit (s := S1x1) ![0, 0] S1x1.size inb_S1x1_S1x1_0_0).toLoadRect (h6.unread xs1)) = xs1 := by
  rw [View.readAt_eq_ld, h6.read_unread, View.ld_unit_zero (S := S1x1) hz2]

/-- The charges of a step's rows, added up, in terms of the loop's final carried value. -/
theorem sum_carried (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (x0 : Vec Ideal S1x1024x3 .f32) (x1 : Vec Ideal S1x3x9216 .f32)
    (G : BufTy.Contents (Elt Ideal) scM0_0.view.ty) :
    ∑ r : Fin 1024, (stAt Variants.none c none i arg2 harg2 arg3 harg3 arg4 harg4 scM0_0 h5 scM0_1 h6 x0 (harg3.unread x1) G (k0_pay3 (F := Ideal)) k0_t1_loop.trips).1 (ix2 r 0) = rowSum x0 x1 := by
  unfold rowSum
  refine Finset.sum_congr rfl fun r _ => ?_
  rw [carried_final Variants.none c none i arg2 harg2 arg3 harg3 arg4 harg4 scM0_0 h5 scM0_1 h6 x0 (harg3.unread x1) G _ trips_eq r, harg3.read_unread]

/-! ## A middle step -/

/-- The stores into the column minima are the loop's, from what the step before left. -/
theorem runB_cols (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : ¬cond0_1 i)
    (x0 : Vec Ideal S1x1024x3 .f32) (x1 : Vec Ideal S1x3x9216 .f32) (xs0 : Vec Ideal S1x9216 .f32) (xs1 : Vec Ideal S1x1 .f32) :
    (kernelRun0_B c i arg2 harg2 arg3 harg3 arg4 harg4 scM0_0 h5 scM0_1 h6 hc0 hc1 x0 x1 xs0 xs1).2.1 = (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (h5.unread xs0) (k0_pay3 (F := Ideal)) k0_t1_loop.trips).2 := by
  unfold kernelRun0_B; rfl

/-- The one store into the running total: what the step before left plus the charges of this step's rows. -/
theorem runB_total (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : ¬cond0_1 i)
    (x0 : Vec Ideal S1x1024x3 .f32) (x1 : Vec Ideal S1x3x9216 .f32) (xs0 : Vec Ideal S1x9216 .f32) (xs1 : Vec Ideal S1x1 .f32) :
    (kernelRun0_B c i arg2 harg2 arg3 harg3 arg4 harg4 scM0_0 h5 scM0_1 h6 hc0 hc1 x0 x1 xs0 xs1).2.2.1 = [⟨(Rect.unit (s := S1x1) ![0, 0] S1x1.size inb_S1x1_S1x1_0_0), k0_pay7 (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (h5.unread xs0) (k0_pay3 (F := Ideal)) k0_t1_loop.trips).1 (View.readAt (Elt Ideal) scM0_1.view (Rect.unit (s := S1x1) ![0, 0] S1x1.size inb_S1x1_S1x1_0_0).toLoadRect (h6.unread xs1))⟩] := by
  unfold kernelRun0_B; dsimp only; sl_unfold_run_names; rfl

/-- The output's one store holds the total as the running-total buffer has it after its stores. -/
theorem runB_out (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : ¬cond0_1 i)
    (x0 : Vec Ideal S1x1024x3 .f32) (x1 : Vec Ideal S1x3x9216 .f32) (xs0 : Vec Ideal S1x9216 .f32) (xs1 : Vec Ideal S1x1 .f32) :
    (kernelRun0_B c i arg2 harg2 arg3 harg3 arg4 harg4 scM0_0 h5 scM0_1 h6 hc0 hc1 x0 x1 xs0 xs1).1 = [⟨(Rect.unit (s := S1x1x1) ![0, 0, 0] S1x1x1.size inb_S1x1x1_S1x1x1_0_0_0), k0_pay9 (scM0_1.view.readCov (kernelRun0_B c i arg2 harg2 arg3 harg3 arg4 harg4 scM0_0 h5 scM0_1 h6 hc0 hc1 x0 x1 xs0 xs1).2.2.1 (Rect.unit (s := S1x1) ![0, 0] S1x1.size inb_S1x1_S1x1_0_0).toLoadRect)⟩] := by
  unfold kernelRun0_B; dsimp only; sl_unfold_run_names; rfl

theorem sout_B_0 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : ¬cond0_1 i)
    (x0 : Vec Ideal S1x1024x3 .f32) (x1 : Vec Ideal S1x3x9216 .f32) (xs0 : Vec Ideal S1x9216 .f32) (xs1 : Vec Ideal S1x1 .f32) (y : S1x9216.Idx) :
    sout0_B_0 c i arg2 harg2 arg3 harg3 arg4 harg4 scM0_0 h5 scM0_1 h6 hc0 hc1 x0 x1 xs0 xs1 y = colVal x0 x1 xs0 y := by
  unfold sout0_B_0
  rw [View.read_writes_junk_eq_canon, runB_cols, load_block,
    canon_cols Variants.none c none i arg2 harg2 arg3 harg3 arg4 harg4 scM0_0 h5 scM0_1 h6 x0 (harg3.unread x1) (h5.unread xs0) _ trips_eq y,
    harg3.read_unread, h5.read_unread]

theorem sout_B_1 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : ¬cond0_1 i)
    (x0 : Vec Ideal S1x1024x3 .f32) (x1 : Vec Ideal S1x3x9216 .f32) (xs0 : Vec Ideal S1x9216 .f32) (xs1 : Vec Ideal S1x1 .f32) (y : S1x1.Idx) :
    sout0_B_1 c i arg2 harg2 arg3 harg3 arg4 harg4 scM0_0 h5 scM0_1 h6 hc0 hc1 x0 x1 xs0 xs1 y = xs1 (ix2 0 0) + rowSum x0 x1 := by
  unfold sout0_B_1
  rw [View.read_writes_junk_eq_canon, runB_total, View.canon_unit_zero (S := S1x1) hz2, pay7_apply' _ _ y,
    load_block, load_total, sum_carried, eq_ix2_00 y]

theorem out_B_2 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : ¬cond0_1 i)
    (x0 : Vec Ideal S1x1024x3 .f32) (x1 : Vec Ideal S1x3x9216 .f32) (xs0 : Vec Ideal S1x9216 .f32) (xs1 : Vec Ideal S1x1 .f32) (y : S1x1x1.Idx) :
    out0_B_2 c i arg2 harg2 arg3 harg3 arg4 harg4 scM0_0 h5 scM0_1 h6 hc0 hc1 x0 x1 xs0 xs1 y = xs1 (ix2 0 0) + rowSum x0 x1 := by
  unfold out0_B_2
  rw [View.read_writes_junk_eq_canon, runB_out, View.canon_unit_zero (S := S1x1x1) hz3, pay9_apply' _ y,
    View.readCov_eq_canon']
  have h := sout_B_1 c i arg2 harg2 arg3 harg3 arg4 harg4 h5 h6 hc0 hc1 x0 x1 xs0 xs1 ((Rect.unit (s := S1x1) ![0, 0] S1x1.size inb_S1x1_S1x1_0_0).toLoadRect.idx (ix2 0 0))
  unfold sout0_B_1 at h
  rw [View.read_writes_junk_eq_canon] at h
  exact h

/-! ## The last step of a batch entry -/

theorem runC_cols (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : cond0_1 i)
    (x0 : Vec Ideal S1x1024x3 .f32) (x1 : Vec Ideal S1x3x9216 .f32) (xs0 : Vec Ideal S1x9216 .f32) (xs1 : Vec Ideal S1x1 .f32) :
    (kernelRun0_C c i arg2 harg2 arg3 harg3 arg4 harg4 scM0_0 h5 scM0_1 h6 hc0 hc1 x0 x1 xs0 xs1).2.1 = (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (h5.unread xs0) (k0_pay3 (F := Ideal)) k0_t1_loop.trips).2 := by
  unfold kernelRun0_C; rfl

/-- Two stores into the running total: first as in a middle step, then that plus the sum of the column minima as
    the loop's stores have left them. -/
theorem runC_total (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : cond0_1 i)
    (x0 : Vec Ideal S1x1024x3 .f32) (x1 : Vec Ideal S1x3x9216 .f32) (xs0 : Vec Ideal S1x9216 .f32) (xs1 : Vec Ideal S1x1 .f32) :
    (kernelRun0_C c i arg2 harg2 arg3 harg3 arg4 harg4 scM0_0 h5 scM0_1 h6 hc0 hc1 x0 x1 xs0 xs1).2.2.1
      = [⟨(Rect.unit (s := S1x1) ![0, 0] S1x1.size inb_S1x1_S1x1_0_0), k0_pay8 (scM0_1.view.readCov [⟨(Rect.unit (s := S1x1) ![0, 0] S1x1.size inb_S1x1_S1x1_0_0), k0_pay7 (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (h5.unread xs0) (k0_pay3 (F := Ideal)) k0_t1_loop.trips).1 (View.readAt (Elt Ideal) scM0_1.view (Rect.unit (s := S1x1) ![0, 0] S1x1.size inb_S1x1_S1x1_0_0).toLoadRect (h6.unread xs1))⟩] (Rect.unit (s := S1x1) ![0, 0] S1x1.size inb_S1x1_S1x1_0_0).toLoadRect)
            (View.readAt (Elt Ideal) scM0_0.view (Rect.unit (s := S1x9216) ![0, 0] S1x9216.size inb_S1x9216_S1x9216_0_0).toLoadRect
              (scM0_0.view.writes (Elt Ideal) (h5.unread xs0) (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (h5.unread xs0) (k0_pay3 (F := Ideal)) k0_t1_loop.trips).2))⟩,
         ⟨(Rect.unit (s := S1x1) ![0, 0] S1x1.size inb_S1x1_S1x1_0_0), k0_pay7 (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (h5.unread xs0) (k0_pay3 (F := Ideal)) k0_t1_loop.trips).1 (View.readAt (Elt Ideal) scM0_1.view (Rect.unit (s := S1x1) ![0, 0] S1x1.size inb_S1x1_S1x1_0_0).toLoadRect (h6.unread xs1))⟩] := by
  unfold kernelRun0_C; dsimp only; sl_unfold_run_names; rfl

/-- The output's one store holds the total as the running-total buffer has it after its stores. -/
theorem runC_out (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : cond0_1 i)
    (x0 : Vec Ideal S1x1024x3 .f32) (x1 : Vec Ideal S1x3x9216 .f32) (xs0 : Vec Ideal S1x9216 .f32) (xs1 : Vec Ideal S1x1 .f32) :
    (kernelRun0_C c i arg2 harg2 arg3 harg3 arg4 harg4 scM0_0 h5 scM0_1 h6 hc0 hc1 x0 x1 xs0 xs1).1 = [⟨(Rect.unit (s := S1x1x1) ![0, 0, 0] S1x1x1.size inb_S1x1x1_S1x1x1_0_0_0), k0_pay9 (scM0_1.view.readCov (kernelRun0_C c i arg2 harg2 arg3 harg3 arg4 harg4 scM0_0 h5 scM0_1 h6 hc0 hc1 x0 x1 xs0 xs1).2.2.1 (Rect.unit (s := S1x1) ![0, 0] S1x1.size inb_S1x1_S1x1_0_0).toLoadRect)⟩] := by
  unfold kernelRun0_C; dsimp only; sl_unfold_run_names; rfl

theorem sout_C_0 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : cond0_1 i)
    (x0 : Vec Ideal S1x1024x3 .f32) (x1 : Vec Ideal S1x3x9216 .f32) (xs0 : Vec Ideal S1x9216 .f32) (xs1 : Vec Ideal S1x1 .f32) (y : S1x9216.Idx) :
    sout0_C_0 c i arg2 harg2 arg3 harg3 arg4 harg4 scM0_0 h5 scM0_1 h6 hc0 hc1 x0 x1 xs0 xs1 y = colVal x0 x1 xs0 y := by
  unfold sout0_C_0
  rw [View.read_writes_junk_eq_canon, runC_cols, load_block,
    canon_cols Variants.none c none i arg2 harg2 arg3 harg3 arg4 harg4 scM0_0 h5 scM0_1 h6 x0 (harg3.unread x1) (h5.unread xs0) _ trips_eq y,
    harg3.read_unread, h5.read_unread]

theorem sout_C_1 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : cond0_1 i)
    (x0 : Vec Ideal S1x1024x3 .f32) (x1 : Vec Ideal S1x3x9216 .f32) (xs0 : Vec Ideal S1x9216 .f32) (xs1 : Vec Ideal S1x1 .f32) (y : S1x1.Idx) :
    sout0_C_1 c i arg2 harg2 arg3 harg3 arg4 harg4 scM0_0 h5 scM0_1 h6 hc0 hc1 x0 x1 xs0 xs1 y = (xs1 (ix2 0 0) + rowSum x0 x1) + colSum x0 x1 xs0 := by
  unfold sout0_C_1
  rw [View.read_writes_junk_eq_canon, runC_total, View.canon_cons_unit_zero (S := S1x1) hz2, pay8_apply' _ _ y,
    View.readCov_unit_zero (S := S1x1) _ hz2, pay7_apply' _ _ y, load_block, load_total, sum_carried, eq_ix2_00 y]
  congr 1
  unfold colSum
  refine Finset.sum_congr rfl fun j _ => ?_
  rw [View.readAt_eq_ld, View.ld_unit_zero (S := S1x9216) hz2,
    read_cols Variants.none c none i arg2 harg2 arg3 harg3 arg4 harg4 scM0_0 h5 scM0_1 h6 x0 (harg3.unread x1) (h5.unread xs0) _ trips_eq (ix2 0 j),
    harg3.read_unread, h5.read_unread]

theorem out_C_2 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : ¬cond0_0 i) (hc1 : cond0_1 i)
    (x0 : Vec Ideal S1x1024x3 .f32) (x1 : Vec Ideal S1x3x9216 .f32) (xs0 : Vec Ideal S1x9216 .f32) (xs1 : Vec Ideal S1x1 .f32) (y : S1x1x1.Idx) :
    out0_C_2 c i arg2 harg2 arg3 harg3 arg4 harg4 scM0_0 h5 scM0_1 h6 hc0 hc1 x0 x1 xs0 xs1 y = (xs1 (ix2 0 0) + rowSum x0 x1) + colSum x0 x1 xs0 := by
  unfold out0_C_2
  rw [View.read_writes_junk_eq_canon, runC_out, View.canon_unit_zero (S := S1x1x1) hz3, pay9_apply' _ y,
    View.readCov_eq_canon']
  have h := sout_C_1 c i arg2 harg2 arg3 harg3 arg4 harg4 h5 h6 hc0 hc1 x0 x1 xs0 xs1 ((Rect.unit (s := S1x1) ![0, 0] S1x1.size inb_S1x1_S1x1_0_0).toLoadRect.idx (ix2 0 0))
  unfold sout0_C_1 at h
  rw [View.read_writes_junk_eq_canon] at h
  exact h

/-! ## The first step of a batch entry -/

/-- The stores into the column minima: plus infinity over the whole buffer first, then the loop's, which start
    from that. -/
theorem runA_cols (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : cond0_0 i) (hc1 : ¬cond0_1 i)
    (x0 : Vec Ideal S1x1024x3 .f32) (x1 : Vec Ideal S1x3x9216 .f32) :
    (kernelRun0_A c i arg2 harg2 arg3 harg3 arg4 harg4 scM0_0 h5 scM0_1 h6 hc0 hc1 x0 x1).2.1 = (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (scM0_0.view.writes (Elt Ideal) scM0_0.view.junk [⟨(Rect.unit (s := S1x9216) ![0, 0] S1x9216.size inb_S1x9216_S1x9216_0_0), k0_pay1 (F := Ideal)⟩]) (k0_pay3 (F := Ideal)) k0_t1_loop.trips).2 ++ [⟨(Rect.unit (s := S1x9216) ![0, 0] S1x9216.size inb_S1x9216_S1x9216_0_0), k0_pay1 (F := Ideal)⟩] := by
  unfold kernelRun0_A; dsimp only; sl_unfold_run_names; rfl

/-- Two stores into the running total: zero first, then that plus the charges of this step's rows. -/
theorem runA_total (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : cond0_0 i) (hc1 : ¬cond0_1 i)
    (x0 : Vec Ideal S1x1024x3 .f32) (x1 : Vec Ideal S1x3x9216 .f32) :
    (kernelRun0_A c i arg2 harg2 arg3 harg3 arg4 harg4 scM0_0 h5 scM0_1 h6 hc0 hc1 x0 x1).2.2.1
      = [⟨(Rect.unit (s := S1x1) ![0, 0] S1x1.size inb_S1x1_S1x1_0_0), k0_pay7 (stAt Variants.none c none i arg2 harg2 arg3 harg3 arg4 harg4 scM0_0 h5 scM0_1 h6 (View.readAt (Elt Ideal) arg2.view (Rect.unit (s := S1x1024x3) ![0, 0, 0] S1x1024x3.size inb_S1x1024x3_S1x1024x3_0_0_0).toLoadRect (harg2.unread x0)) (harg3.unread x1) (scM0_0.view.writes (Elt Ideal) scM0_0.view.junk [⟨(Rect.unit (s := S1x9216) ![0, 0] S1x9216.size inb_S1x9216_S1x9216_0_0), k0_pay1 (F := Ideal)⟩]) (k0_pay3 (F := Ideal)) k0_t1_loop.trips).1 (scM0_1.view.readCov [⟨(Rect.unit (s := S1x1) ![0, 0] S1x1.size inb_S1x1_S1x1_0_0), k0_pay2 (F := Ideal)⟩] (Rect.unit (s := S1x1) ![0, 0] S1x1.size inb_S1x1_S1x1_0_0).toLoadRect)⟩,
         ⟨(Rect.unit (s := S1x1) ![0, 0] S1x1.size inb_S1x1_S1x1_0_0), k0_pay2 (F := Ideal)⟩] := by
  unfold kernelRun0_A; dsimp only; sl_unfold_run_names; rfl

/-- The output's one store holds the total as the running-total buffer has it after its stores. -/
theorem runA_out (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : cond0_0 i) (hc1 : ¬cond0_1 i)
    (x0 : Vec Ideal S1x1024x3 .f32) (x1 : Vec Ideal S1x3x9216 .f32) :
    (kernelRun0_A c i arg2 harg2 arg3 harg3 arg4 harg4 scM0_0 h5 scM0_1 h6 hc0 hc1 x0 x1).1 = [⟨(Rect.unit (s := S1x1x1) ![0, 0, 0] S1x1x1.size inb_S1x1x1_S1x1x1_0_0_0), k0_pay9 (scM0_1.view.readCov (kernelRun0_A c i arg2 harg2 arg3 harg3 arg4 harg4 scM0_0 h5 scM0_1 h6 hc0 hc1 x0 x1).2.2.1 (Rect.unit (s := S1x1) ![0, 0] S1x1.size inb_S1x1_S1x1_0_0).toLoadRect)⟩] := by
  unfold kernelRun0_A; dsimp only; sl_unfold_run_names; rfl

theorem sout_A_0 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : cond0_0 i) (hc1 : ¬cond0_1 i)
    (x0 : Vec Ideal S1x1024x3 .f32) (x1 : Vec Ideal S1x3x9216 .f32) (y : S1x9216.Idx) :
    sout0_A_0 c i arg2 harg2 arg3 harg3 arg4 harg4 scM0_0 h5 scM0_1 h6 hc0 hc1 x0 x1 y = colVal x0 x1 (fun _ => inf32) y := by
  unfold sout0_A_0
  rw [runA_cols, View.writes_append, load_block]
  show scM0_0.view.read (Elt Ideal) (scM0_0.view.writes (Elt Ideal) (scM0_0.view.writes (Elt Ideal) scM0_0.view.junk [⟨(Rect.unit (s := S1x9216) ![0, 0] S1x9216.size inb_S1x9216_S1x9216_0_0), k0_pay1 (F := Ideal)⟩]) (stAt Variants.none c none i arg2 harg2 arg3 harg3 arg4 harg4 scM0_0 h5 scM0_1 h6 x0 (harg3.unread x1) (scM0_0.view.writes (Elt Ideal) scM0_0.view.junk [⟨(Rect.unit (s := S1x9216) ![0, 0] S1x9216.size inb_S1x9216_S1x9216_0_0), k0_pay1 (F := Ideal)⟩]) (k0_pay3 (F := Ideal)) k0_t1_loop.trips).2) y = _
  rw [read_cols Variants.none c none i arg2 harg2 arg3 harg3 arg4 harg4 scM0_0 h5 scM0_1 h6 x0 (harg3.unread x1) (scM0_0.view.writes (Elt Ideal) scM0_0.view.junk [⟨(Rect.unit (s := S1x9216) ![0, 0] S1x9216.size inb_S1x9216_S1x9216_0_0), k0_pay1 (F := Ideal)⟩]) _ trips_eq y, harg3.read_unread,
    View.read_writes_junk_eq_canon, View.canon_unit_zero (S := S1x9216) hz2]
  exact congrArg (fun g => colVal x0 x1 g y) (funext fun z => pay1_apply z)

theorem sout_A_1 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : cond0_0 i) (hc1 : ¬cond0_1 i)
    (x0 : Vec Ideal S1x1024x3 .f32) (x1 : Vec Ideal S1x3x9216 .f32) (y : S1x1.Idx) :
    sout0_A_1 c i arg2 harg2 arg3 harg3 arg4 harg4 scM0_0 h5 scM0_1 h6 hc0 hc1 x0 x1 y = zero32 + rowSum x0 x1 := by
  unfold sout0_A_1
  rw [View.read_writes_junk_eq_canon, runA_total, View.canon_cons_unit_zero (S := S1x1) hz2, pay7_apply' _ _ y,
    View.readCov_unit_zero (S := S1x1) _ hz2, pay2_apply, load_block, sum_carried]

theorem out_A_2 (c : Dev nD) (i : grid0.Coords) (arg2 : Memref sig .tc .vmem S1x1024x3 .f32) (harg2 : arg2.IsWhole) (arg3 : Memref sig .tc .vmem S1x3x9216 .f32) (harg3 : arg3.IsWhole) (arg4 : Memref sig .tc .vmem S1x1x1 .f32) (harg4 : arg4.IsWhole) (h5 : scM0_0.IsWhole) (h6 : scM0_1.IsWhole) (hc0 : cond0_0 i) (hc1 : ¬cond0_1 i)
    (x0 : Vec Ideal S1x1024x3 .f32) (x1 : Vec Ideal S1x3x9216 .f32) (y : S1x1x1.Idx) :
    out0_A_2 c i arg2 harg2 arg3 harg3 arg4 harg4 scM0_0 h5 scM0_1 h6 hc0 hc1 x0 x1  y = zero32 + rowSum x0 x1 := by
  unfold out0_A_2
  rw [View.read_writes_junk_eq_canon, runA_out, View.canon_unit_zero (S := S1x1x1) hz3, pay9_apply' _ y,
    View.readCov_eq_canon']
  have h := sout_A_1 c i arg2 harg2 arg3 harg3 arg4 harg4 h5 h6 hc0 hc1 x0 x1  ((Rect.unit (s := S1x1) ![0, 0] S1x1.size inb_S1x1_S1x1_0_0).toLoadRect.idx (ix2 0 0))
  unfold sout0_A_1 at h
  rw [View.read_writes_junk_eq_canon] at h
  exact h

end Cert.KernelIdeal.Cases

end
-- ==== Proof.KBlocks.lean ====
/-
  Where the kernel's input tiles sit in the two clouds.

  Before the kernel runs, the first cloud is viewed as 2 entries of 9216 points by 3 coordinates, and the second
  cloud the same way and then turned so that each entry holds 3 rows of 9216 values, one row per coordinate. The
  kernel walks a grid of 2 entries by 9 steps. At the point of entry `b` and step `s` it is handed rows
  `1024 s … 1024 s + 1023` of entry `b` of the first cloud, and the whole of entry `b` of the turned second cloud.
  Here each of these tiles is read, element by element, off the arrays.
-/
import proofs.«119021_j48292612276314_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ) (c : Dev nD)

/-! ## The two arrays the kernel reads, in terms of the clouds -/

/-- The first array is the first cloud with its two middle axes merged into one axis of 9216 points. -/
theorem V_v0 : (V m c main_v0 : S2x9216x3.Idx → EReal)
    = shapeCast S2x9216x3 (m ((c.tc : Thread nD τ).loc main_arg0) : S2x96x96x3.Idx → EReal) shapeCasts_S2x96x96x3_S2x9216x3 := by
  show StableHlo.after hostOps0 (fun b => m (c, b)) (Proc.devRef .tc main_v0) = _
  after_results
  rfl

/-- The second array is the second cloud merged the same way and then turned: coordinates before points. -/
theorem V_v2 : (V m c main_v2 : S2x3x9216.Idx → EReal)
    = transpose S2x3x9216 [0, 2, 1]
        (shapeCast S2x9216x3 (m ((c.tc : Thread nD τ).loc main_arg1) : S2x96x96x3.Idx → EReal) shapeCasts_S2x96x96x3_S2x9216x3)
        transposes_S2x9216x3_S2x3x9216_0_2_1 := by
  show StableHlo.after hostOps0 (fun b => m (c, b)) (Proc.devRef .tc main_v2) = _
  after_results
  rfl

/-- Coordinate `cc` of point `j` of entry `b` of the turned second array is that of the merged second cloud. -/
theorem V_v2_apply (b : Fin 2) (cc : Fin 3) (j : Fin 9216) :
    (V m c main_v2 : S2x3x9216.Idx → EReal) (ix3 b cc j)
      = shapeCast S2x9216x3 (m ((c.tc : Thread nD τ).loc main_arg1) : S2x96x96x3.Idx → EReal) shapeCasts_S2x96x96x3_S2x9216x3 (ix3 b j cc) := by
  rw [V_v2]
  exact transpose_ix3_021_apply _ _ b cc j

/-! ## Which tile each grid point is handed -/

/-- The first window's tile index at point `t`: entry `t / 9`, step `t % 9`, all three coordinates. -/
theorem index0 : ∀ t : Fin cfg0.N, win0_0.index t (0 : Fin 3) = t.val / 9 ∧ win0_0.index t (1 : Fin 3) = t.val % 9
    ∧ win0_0.index t (2 : Fin 3) = 0 :=
  (by decide +kernel : ∀ t : Fin grid0.N, _)

/-- The second window's tile index at point `t`: entry `t / 9`, everything of it. -/
theorem index1 : ∀ t : Fin cfg0.N, win0_1.index t (0 : Fin 3) = t.val / 9 ∧ win0_1.index t (1 : Fin 3) = 0
    ∧ win0_1.index t (2 : Fin 3) = 0 :=
  (by decide +kernel : ∀ t : Fin grid0.N, _)

/-- The output window's tile index at point `t`: the one number of entry `t / 9`. -/
theorem index2 : ∀ t : Fin cfg0.N, win0_2.index t (0 : Fin 3) = t.val / 9 ∧ win0_2.index t (1 : Fin 3) = 0
    ∧ win0_2.index t (2 : Fin 3) = 0 :=
  (by decide +kernel : ∀ t : Fin grid0.N, _)

/-- The entry of a grid point is one of the two. -/
theorem entry_lt (t : Fin cfg0.N) : t.val / 9 < 2 := by
  have := t.isLt; have : cfg0.N = 18 := N_0; omega

/-- Row `r` of the tile of step `t % 9` is a row of the cloud. -/
theorem row_lt (t : Fin cfg0.N) (r : Fin 1024) : 1024 * (t.val % 9) + r.val < 9216 := by
  have := r.isLt; omega

/-- The first window's tile at point `t`: rows `1024 (t % 9) + r` of entry `t / 9` of the first array. -/
theorem iblk0_apply (t : Fin cfg0.N) (r : Fin 1024) (cc : Fin 3) :
    (iblk m c 0 t : Vec Ideal S1x1024x3 .f32) (ix3 0 r cc)
      = (V m c main_v0 : S2x9216x3.Idx → EReal) (ix3 ⟨t.val / 9, entry_lt t⟩ ⟨1024 * (t.val % 9) + r.val, row_lt t r⟩ cc) := by
  obtain ⟨e0, e1, e2⟩ := index0 t
  unfold iblk
  rw [View.read_apply]
  show V m c main_v0 _ = V m c main_v0 _
  congr 1
  funext a
  apply Fin.ext
  match a with
  | ⟨0, _⟩ => show win0_0.index t (0 : Fin 3) * 1 + 1 * (0 : Fin 1).val = t.val / 9; rw [e0]; simp
  | ⟨1, _⟩ => show win0_0.index t (1 : Fin 3) * 1024 + 1 * r.val = 1024 * (t.val % 9) + r.val; rw [e1]; omega
  | ⟨2, _⟩ => show win0_0.index t (2 : Fin 3) * 3 + 1 * cc.val = cc.val; rw [e2]; omega

/-- The second window's tile at point `t`: the whole of entry `t / 9` of the turned second array. -/
theorem iblk1_apply (t : Fin cfg0.N) (cc : Fin 3) (j : Fin 9216) :
    (iblk m c 1 t : Vec Ideal S1x3x9216 .f32) (ix3 0 cc j)
      = (V m c main_v2 : S2x3x9216.Idx → EReal) (ix3 ⟨t.val / 9, entry_lt t⟩ cc j) := by
  obtain ⟨e0, e1, e2⟩ := index1 t
  unfold iblk
  rw [View.read_apply]
  show V m c main_v2 _ = V m c main_v2 _
  congr 1
  funext a
  apply Fin.ext
  match a with
  | ⟨0, _⟩ => show win0_1.index t (0 : Fin 3) * 1 + 1 * (0 : Fin 1).val = t.val / 9; rw [e0]; simp
  | ⟨1, _⟩ => show win0_1.index t (1 : Fin 3) * 3 + 1 * cc.val = cc.val; rw [e1]; omega
  | ⟨2, _⟩ => show win0_1.index t (2 : Fin 3) * 9216 + 1 * j.val = j.val; rw [e2]; omega

end Cert.KernelIdeal.Blocks

end
-- ==== Proof.LibSumRuns.lean ====
/-
  Sums over an initial segment of the naturals, cut into consecutive runs of equal length.

  The first n * m naturals are the n runs m * k, m * k + 1, …, m * k + (m - 1), for k < n, one after the other.
  A sum over all of them is therefore the sum over the runs of the sums inside each run.  Only associativity and
  commutativity of + are used: the laws hold in every commutative additive monoid (on the extended reals no
  finiteness is asked for).  They are stated once over `Finset.range`, for functions of a natural, and once over
  `Fin`, for functions of a bounded index; the zero extension of a function on `Fin N` carries one form to the other.
-/
import Mathlib.Algebra.BigOperators.Fin
import Mathlib.Algebra.BigOperators.Group.Finset.Basic

open scoped BigOperators

namespace Cert.LibSumRuns

/-- A sum over the first n * m naturals is the sum over the n consecutive runs of length m of the sums over each
    run: run k holds the naturals m * k + r with r < m. -/
theorem sum_range_mul_runs {M : Type*} [AddCommMonoid M] (g : ℕ → M) (m n : ℕ) :
    ∑ i ∈ Finset.range (n * m), g i = ∑ k ∈ Finset.range n, ∑ r ∈ Finset.range m, g (m * k + r) := by
  induction n with
  | zero => rw [Nat.zero_mul, Finset.range_zero, Finset.sum_empty, Finset.sum_empty]
  | succ n ih =>
    rw [Nat.succ_mul, Finset.sum_range_add, ih, Finset.sum_range_succ, Nat.mul_comm n m]

/-- The zero extension of a function on `Fin N` to all naturals. -/
def zeroExt {M : Type*} [Zero M] {N : ℕ} (a : Fin N → M) (i : ℕ) : M := if h : i < N then a ⟨i, h⟩ else 0

/-- Below N the zero extension is the function itself. -/
theorem zeroExt_of_lt {M : Type*} [Zero M] {N : ℕ} (a : Fin N → M) (i : ℕ) (h : i < N) : zeroExt a i = a ⟨i, h⟩ :=
  dif_pos h

/-- A sum over `Fin N` is the sum of the zero extension over the first N naturals. -/
theorem sum_fin_eq_sum_range_zeroExt {M : Type*} [AddCommMonoid M] {N : ℕ} (a : Fin N → M) :
    ∑ l : Fin N, a l = ∑ i ∈ Finset.range N, zeroExt a i := by
  rw [Finset.sum_range]
  exact Finset.sum_congr rfl fun l _ => (zeroExt_of_lt a l.val l.isLt).symm

/-- The same law over bounded indices: for N = n * m, a sum over `Fin N` is the sum over the n runs of the sums
    over the m positions of each run, position r of run k being the index m * k + r (any proof `hb` of its
    bound will do). -/
theorem sum_fin_mul_runs {M : Type*} [AddCommMonoid M] {N : ℕ} (n m : ℕ) (hN : N = n * m) (a : Fin N → M)
    (hb : ∀ (k : Fin n) (r : Fin m), m * k.val + r.val < N) :
    ∑ l : Fin N, a l = ∑ k : Fin n, ∑ r : Fin m, a ⟨m * k.val + r.val, hb k r⟩ := by
  subst hN
  rw [sum_fin_eq_sum_range_zeroExt, sum_range_mul_runs, Finset.sum_range]
  refine Finset.sum_congr rfl fun k _ => ?_
  rw [Finset.sum_range]
  exact Finset.sum_congr rfl fun r _ => zeroExt_of_lt a _ (hb k r)

end Cert.LibSumRuns
-- ==== Proof.KPoints.lean ====
/-
  The kernel's eighteen grid steps, followed one after the other.

  The grid walks the two batch entries in turn, nine steps each; step `s` of an entry holds rows
  `1024 s … 1024 s + 1023` of the entry's first cloud and the whole of its second cloud. Two quantities are
  carried from step to step: for every point of the second cloud, the least squared distance to the rows seen
  so far (a running minimum over a prefix of the first cloud), and the sum of the charges of the rows seen so
  far (each row's least squared distance to the second cloud). After the ninth step the running minima are
  the second cloud's charges; they are added to the running sum, and the nine runs of 1024 rows are the whole
  first cloud: the step leaves the entry's total.
-/
import proofs.«119021_j48292612276314_2_alg».proof.Proof.KCases
import proofs.«119021_j48292612276314_2_alg».proof.Proof.KBlocks
import proofs.«119021_j48292612276314_2_alg».proof.Proof.KDefs
import proofs.«119021_j48292612276314_2_alg».proof.Proof.MinFold
import proofs.«119021_j48292612276314_2_alg».proof.Proof.LibSumRuns
import proofs.«119021_j48292612276314_2_alg».proof.Proof.Spec
import Idealize.ShloMosaic.PureOps.Ideal.Laws

noncomputable section

namespace Cert.KernelIdeal.Points

open Idealize.ShloMosaic Idealize.ShloMosaic.TcCoe Idealize.SL.Sem Idealize.ShloMosaic.ValueIdx
open Cert.KernelIdeal Cert.KernelIdeal.Gen Cert.KernelIdeal.Loop Cert.Chamfer

variable (m : (ℓ : Loc nD τ sig) → Buf (Elt Ideal) ℓ) (c : Dev nD)

/-- The first cloud: the first argument as two entries of 9216 points in three coordinates. -/
abbrev X : Cloud.Idx → EReal :=
  shapeCast S2x9216x3 (m ((c.tc : Thread nD τ).loc main_arg0) : S2x96x96x3.Idx → EReal) shapeCasts_S2x96x96x3_S2x9216x3

/-- The second cloud, likewise. -/
abbrev Y : Cloud.Idx → EReal :=
  shapeCast S2x9216x3 (m ((c.tc : Thread nD τ).loc main_arg1) : S2x96x96x3.Idx → EReal) shapeCasts_S2x96x96x3_S2x9216x3

/-- The batch entry a grid position belongs to. -/
abbrev ent (n : ℕ) (h : n < cfg0.N) : Fin 2 := ⟨n / 9, by have hN : cfg0.N = 18 := N_0; omega⟩

/-! ## One step's quantities in terms of the clouds -/

/-- Inside a step the squared distance between a row of the block and a point of the second cloud is the
    squared distance between the corresponding points of the two clouds. -/
theorem dist (t : Fin cfg0.N) (r : Fin 1024) (j : Fin 9216) :
    blockDist (iblk m c 0 t) (iblk m c 1 t) r j
      = sqDist (X m c) (Y m c) (ent t.val t.isLt) ⟨1024 * (t.val % 9) + r.val, Blocks.row_lt t r⟩ j := by
  unfold blockDist sqDist
  rw [Blocks.iblk0_apply m c t r 0, Blocks.iblk0_apply m c t r 1, Blocks.iblk0_apply m c t r 2,
    Blocks.iblk1_apply m c t 0 j, Blocks.iblk1_apply m c t 1 j, Blocks.iblk1_apply m c t 2 j,
    Blocks.V_v0, Blocks.V_v2_apply, Blocks.V_v2_apply, Blocks.V_v2_apply]

/-- A step lowers the running minimum of a point of the second cloud from the prefix before the step's rows
    to the prefix that includes them. -/
theorem col_step (t : Fin cfg0.N) (g : Vec Ideal S1x9216 .f32) (j : Fin 9216)
    (hg : g (ix2 0 j) = minUpTo (1024 * (t.val % 9)) (fun i => sqDist (X m c) (Y m c) (ent t.val t.isLt) i j)) :
    colVal (iblk m c 0 t) (iblk m c 1 t) g (ix2 0 j)
      = minUpTo (1024 * (t.val % 9) + 1024) (fun i => sqDist (X m c) (Y m c) (ent t.val t.isLt) i j) := by
  unfold colVal
  refine Eq.trans ?_ (minUpTo_add_tile (1024 * (t.val % 9)) (by omega)
    (fun i => sqDist (X m c) (Y m c) (ent t.val t.isLt) i j))
  rw [hg]
  refine congrArg (min _) (Finset.fold_congr fun r _ => ?_)
  exact dist m c t r j

/-- The charges of the first cloud's points, as a function of the natural position (zero past the end). -/
def G (fb : Fin 2) : ℕ → EReal := LibSumRuns.zeroExt (fun i : Fin 9216 => toSecond (X m c) (Y m c) fb i)

/-- The charges of the rows of the first `s` steps of an entry, added up run by run. -/
def runs (fb : Fin 2) (s : ℕ) : EReal :=
  ∑ k ∈ Finset.range s, ∑ r ∈ Finset.range 1024, G m c fb (1024 * k + r)

theorem runs_zero (fb : Fin 2) : runs m c fb 0 = 0 := by
  unfold runs; rw [Finset.range_zero, Finset.sum_empty]

theorem runs_succ (fb : Fin 2) (s : ℕ) :
    runs m c fb s + ∑ r ∈ Finset.range 1024, G m c fb (1024 * s + r) = runs m c fb (s + 1) := by
  unfold runs
  exact (Finset.sum_range_succ (fun k => ∑ r ∈ Finset.range 1024, G m c fb (1024 * k + r)) s).symm

/-- Nine runs of 1024 rows are the whole first cloud. -/
theorem runs_nine (fb : Fin 2) : runs m c fb 9 = ∑ i : Fin 9216, toSecond (X m c) (Y m c) fb i := by
  unfold runs G
  refine (LibSumRuns.sum_range_mul_runs
    (LibSumRuns.zeroExt (fun i : Fin 9216 => toSecond (X m c) (Y m c) fb i)) 1024 9).symm.trans ?_
  exact (LibSumRuns.sum_fin_eq_sum_range_zeroExt (fun i : Fin 9216 => toSecond (X m c) (Y m c) fb i)).symm

/-- The charges of a step's rows are one run of the first cloud's charges. -/
theorem rowSum_eq (t : Fin cfg0.N) :
    rowSum (iblk m c 0 t) (iblk m c 1 t)
      = ∑ r ∈ Finset.range 1024, G m c (ent t.val t.isLt) (1024 * (t.val % 9) + r) := by
  unfold rowSum
  rw [Finset.sum_range]
  refine Finset.sum_congr rfl fun r _ => ?_
  unfold G
  rw [LibSumRuns.zeroExt_of_lt _ _ (Blocks.row_lt t r)]
  unfold toSecond
  exact Finset.fold_congr fun j _ => dist m c t r j

/-- At the ninth step the running minima, once lowered by the step's rows, are the second cloud's charges. -/
theorem colSum_eq (t : Fin cfg0.N) (h8 : t.val % 9 = 8) (g : Vec Ideal S1x9216 .f32)
    (hg : ∀ j : Fin 9216,
      g (ix2 0 j) = minUpTo (1024 * (t.val % 9)) (fun i => sqDist (X m c) (Y m c) (ent t.val t.isLt) i j)) :
    colSum (iblk m c 0 t) (iblk m c 1 t) g = ∑ j : Fin 9216, toFirst (X m c) (Y m c) (ent t.val t.isLt) j := by
  unfold colSum
  refine Finset.sum_congr rfl fun j _ => ?_
  rw [col_step m c t g j (hg j)]
  have e : 1024 * (t.val % 9) + 1024 = 9216 := by omega
  rw [e, minUpTo_all]
  rfl

/-! ## What the steps leave, one after the other -/

/-- After position `n`: every running minimum covers the rows up to and including this step's; before the
    ninth step of an entry the running sum holds the charges of those rows; and the ninth step leaves, in the
    output block, that sum with the second cloud's charges added. -/
def Inv (n : ℕ) (h : n < cfg0.N) : Prop :=
  (∀ j : Fin 9216, (outsAt0 m c n h).2.1 (ix2 0 j)
      = minUpTo (1024 * (n % 9) + 1024) (fun i => sqDist (X m c) (Y m c) (ent n h) i j))
  ∧ (∀ y : S1x1.Idx, n % 9 ≠ 8 → (outsAt0 m c n h).2.2 y = zero32 + runs m c (ent n h) (n % 9 + 1))
  ∧ (∀ y : S1x1x1.Idx, n % 9 = 8 → (outsAt0 m c n h).1 y
      = (zero32 + runs m c (ent n h) (n % 9 + 1)) + ∑ j : Fin 9216, toFirst (X m c) (Y m c) (ent n h) j)

/-- The first step of an entry. -/
theorem stepA (t : Fin cfg0.N) (h0 : t.val % 9 = 0) (h1 : ¬t.val % 9 = 8) : Inv m c t.val t.isLt := by
  unfold Inv
  refine ⟨fun j => ?_, fun y _ => ?_, fun y h8 => absurd h8 h1⟩
  · rw [outsAt0_A m c t h0 h1]
    dsimp only
    refine (Cases.sout_A_0 c (grid0.coords t) (ms0_0 t) (hs0_0 t) (ms0_1 t) (hs0_1 t) (ms0_2 t) (hs0_2 t)
      (Memref.isWhole_whole _) (Memref.isWhole_whole _) ((hcond0_0 t).mpr h0) (fun h => h1 ((hcond0_1 t).mp h))
      (iblk m c 0 t) (iblk m c 1 t) (ix2 0 j)).trans ?_
    refine col_step m c t (fun _ => inf32) j ?_
    rw [h0]
    exact (minUpTo_zero _).symm
  · rw [outsAt0_A m c t h0 h1]
    dsimp only
    refine (Cases.sout_A_1 c (grid0.coords t) (ms0_0 t) (hs0_0 t) (ms0_1 t) (hs0_1 t) (ms0_2 t) (hs0_2 t)
      (Memref.isWhole_whole _) (Memref.isWhole_whole _) ((hcond0_0 t).mpr h0) (fun h => h1 ((hcond0_1 t).mp h))
      (iblk m c 0 t) (iblk m c 1 t) y).trans ?_
    rw [rowSum_eq m c t, ← runs_succ m c _ (t.val % 9), h0, runs_zero, zero_add]

/-- A middle step of an entry, from what the step before left. -/
theorem stepB (t : Fin cfg0.N) (h0 : ¬t.val % 9 = 0) (h1 : ¬t.val % 9 = 8)
    (ih : Inv m c (t.val - 1) (Nat.lt_of_le_of_lt (Nat.sub_le _ _) t.isLt)) : Inv m c t.val t.isLt := by
  unfold Inv at ih ⊢
  obtain ⟨ih0, ih1, -⟩ := ih
  have e1 : (t.val - 1) % 9 + 1 = t.val % 9 := by omega
  have e2 : ent (t.val - 1) (Nat.lt_of_le_of_lt (Nat.sub_le _ _) t.isLt) = ent t.val t.isLt :=
    Fin.ext (by show (t.val - 1) / 9 = t.val / 9; omega)
  have e3 : 1024 * ((t.val - 1) % 9) + 1024 = 1024 * (t.val % 9) := by omega
  rw [e2, e3] at ih0
  have ih1' := fun y => ih1 y (by omega)
  rw [e2, e1] at ih1'
  refine ⟨fun j => ?_, fun y _ => ?_, fun y h8 => absurd h8 h1⟩
  · rw [outsAt0_B m c t h0 h1]
    dsimp only
    refine (Cases.sout_B_0 c (grid0.coords t) (ms0_0 t) (hs0_0 t) (ms0_1 t) (hs0_1 t) (ms0_2 t) (hs0_2 t)
      (Memref.isWhole_whole _) (Memref.isWhole_whole _) (fun h => h0 ((hcond0_0 t).mp h)) (fun h => h1 ((hcond0_1 t).mp h))
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (ix2 0 j)).trans ?_
    exact col_step m c t _ j (ih0 j)
  · rw [outsAt0_B m c t h0 h1]
    dsimp only
    refine (Cases.sout_B_1 c (grid0.coords t) (ms0_0 t) (hs0_0 t) (ms0_1 t) (hs0_1 t) (ms0_2 t) (hs0_2 t)
      (Memref.isWhole_whole _) (Memref.isWhole_whole _) (fun h => h0 ((hcond0_0 t).mp h)) (fun h => h1 ((hcond0_1 t).mp h))
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 y).trans ?_
    rw [ih1' (ix2 0 0), rowSum_eq m c t, add_assoc, runs_succ]

/-- The ninth step of an entry, from what the step before left. -/
theorem stepC (t : Fin cfg0.N) (h0 : ¬t.val % 9 = 0) (h1 : t.val % 9 = 8)
    (ih : Inv m c (t.val - 1) (Nat.lt_of_le_of_lt (Nat.sub_le _ _) t.isLt)) : Inv m c t.val t.isLt := by
  unfold Inv at ih ⊢
  obtain ⟨ih0, ih1, -⟩ := ih
  have e1 : (t.val - 1) % 9 + 1 = t.val % 9 := by omega
  have e2 : ent (t.val - 1) (Nat.lt_of_le_of_lt (Nat.sub_le _ _) t.isLt) = ent t.val t.isLt :=
    Fin.ext (by show (t.val - 1) / 9 = t.val / 9; omega)
  have e3 : 1024 * ((t.val - 1) % 9) + 1024 = 1024 * (t.val % 9) := by omega
  rw [e2, e3] at ih0
  have ih1' := fun y => ih1 y (by omega)
  rw [e2, e1] at ih1'
  refine ⟨fun j => ?_, fun y h8 => absurd h1 h8, fun y _ => ?_⟩
  · rw [outsAt0_C m c t h0 h1]
    dsimp only
    refine (Cases.sout_C_0 c (grid0.coords t) (ms0_0 t) (hs0_0 t) (ms0_1 t) (hs0_1 t) (ms0_2 t) (hs0_2 t)
      (Memref.isWhole_whole _) (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 (ix2 0 j)).trans ?_
    exact col_step m c t _ j (ih0 j)
  · rw [outsAt0_C m c t h0 h1]
    dsimp only
    refine (Cases.out_C_2 c (grid0.coords t) (ms0_0 t) (hs0_0 t) (ms0_1 t) (hs0_1 t) (ms0_2 t) (hs0_2 t)
      (Memref.isWhole_whole _) (Memref.isWhole_whole _) (fun h => h0 ((hcond0_0 t).mp h)) ((hcond0_1 t).mpr h1)
      (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2 y).trans ?_
    rw [ih1' (ix2 0 0), rowSum_eq m c t, colSum_eq m c t h1 _ ih0, add_assoc zero32, runs_succ]

/-- Every position, by induction: the first step of an entry starts afresh, the others continue. -/
theorem inv_all : ∀ (n : ℕ) (h : n < cfg0.N), Inv m c n h
  | 0, h => stepA m c ⟨0, h⟩ rfl (by show ¬0 % 9 = 8; decide)
  | n + 1, h => by
    have ih := inv_all n (Nat.lt_of_succ_lt h)
    by_cases h0 : (n + 1) % 9 = 0
    · exact stepA m c ⟨n + 1, h⟩ h0 (by show ¬(n + 1) % 9 = 8; omega)
    · by_cases h1 : (n + 1) % 9 = 8
      · exact stepC m c ⟨n + 1, h⟩ h0 h1 ih
      · exact stepB m c ⟨n + 1, h⟩ h0 h1 ih

/-- The ninth step of entry `b` leaves the entry's total: the first cloud's charges plus the second's. -/
theorem last_entry (m : (ℓ : Loc nD τ sig) → Buf (Elt Ideal) ℓ) (c : Dev nD) (b : Fin 2) (h : 9 * b.val + 8 < cfg0.N) :
    (outsAt0 m c (9 * b.val + 8) h).1 (ix3 0 0 0)
      = Cert.Chamfer.entryTotal (shapeCast S2x9216x3 (m ((c.tc : Thread nD τ).loc main_arg0)) shapeCasts_S2x96x96x3_S2x9216x3)
                                 (shapeCast S2x9216x3 (m ((c.tc : Thread nD τ).loc main_arg1)) shapeCasts_S2x96x96x3_S2x9216x3) b := by
  have hI := inv_all m c (9 * b.val + 8) h
  unfold Inv at hI
  have h2 := hI.2.2 (ix3 0 0 0) (by omega)
  have e1 : (9 * b.val + 8) % 9 + 1 = 9 := by omega
  have e2 : ent (9 * b.val + 8) h = b := Fin.ext (by show (9 * b.val + 8) / 9 = b.val; omega)
  rw [e1, e2] at h2
  rw [h2, runs_nine]
  unfold entryTotal zero32
  rw [Ideal.ofBits_zero_f32, zero_add]

end Cert.KernelIdeal.Points

end
-- ==== Proof.lean ====
/-
  The claim has five parts.

  Three of them say that a program runs to completion and leaves its two argument arrays as it found them:
  the kernel on machine words, the kernel read over the extended reals, and the reference read over the
  extended reals.

  The fourth relates the kernel on machine words to its reading over the extended reals. No operation was
  replaced between the two readings, so there is nothing to show.

  The fifth says that, from argument arrays that agree and whose entries are all finite, the kernel and the
  reference over the extended reals end with the same number. Each argument holds two entries of 9216 points
  in three coordinates. Every point of one cloud is charged its squared distance to the nearest point of the
  other cloud; the number is the sum of all charges of both entries, halved.

  Both sides are brought to one expression of that number. The kernel forms a squared distance as the sum of
  the three squared coordinate differences, entry by entry and tile by tile; the last tile of an entry
  leaves the entry's total, and the two totals are added and halved. The reference forms the same squared
  distance as |x|² + |y|² − 2⟨x, y⟩. The two agree because (a − b)² = a² + b² − 2ab in each coordinate: a law of
  the real numbers that fails at the infinities, which is the one place where the finiteness of the inputs is
  used. Minima of equal tables are equal, and the final sums differ only in the order of their terms.
-/
import proofs.«119021_j48292612276314_2_alg».proof.Defs
import proofs.«119021_j48292612276314_2_alg».proof.Proof.Gen.Kernel
import proofs.«119021_j48292612276314_2_alg».proof.Proof.Gen.Kernel.Skeleton
import proofs.«119021_j48292612276314_2_alg».proof.Proof.Gen.Kernel.Loops
import proofs.«119021_j48292612276314_2_alg».proof.Proof.Gen.Kernel.Launch
import proofs.«119021_j48292612276314_2_alg».proof.Proof.Gen.Kernel.Points
import proofs.«119021_j48292612276314_2_alg».proof.Proof.Gen.Kernel.Frame
import proofs.«119021_j48292612276314_2_alg».proof.Proof.Gen.KernelIdeal
import proofs.«119021_j48292612276314_2_alg».proof.Proof.Gen.KernelIdeal.Skeleton
import proofs.«119021_j48292612276314_2_alg».proof.Proof.Gen.KernelIdeal.Loops
import proofs.«119021_j48292612276314_2_alg».proof.Proof.Gen.KernelIdeal.Launch
import proofs.«119021_j48292612276314_2_alg».proof.Proof.Gen.KernelIdeal.Points
import proofs.«119021_j48292612276314_2_alg».proof.Proof.Gen.KernelIdeal.Frame
import proofs.«119021_j48292612276314_2_alg».proof.Proof.Gen.ReferenceIdeal
import proofs.«119021_j48292612276314_2_alg».proof.Proof.Gen.Pre_finite_inputs
import proofs.«119021_j48292612276314_2_alg».proof.Proof.Gen.ReferenceIdeal.Run
import proofs.«119021_j48292612276314_2_alg».proof.Proof.Gen.ReferenceIdeal.Read
import proofs.«119021_j48292612276314_2_alg».proof.Proof.Spec
import proofs.«119021_j48292612276314_2_alg».proof.Proof.RefValue
import proofs.«119021_j48292612276314_2_alg».proof.Proof.Finite
import proofs.«119021_j48292612276314_2_alg».proof.Proof.KArray
import proofs.«119021_j48292612276314_2_alg».proof.Proof.KPoints
import Idealize.ShloMosaic.Adequacy
import Idealize.ShloMosaic.Init

noncomputable section

namespace Cert.Proof

open Idealize.ShloMosaic Idealize.SL.Sem

/-- The kernel on machine words runs to completion and leaves its arguments unchanged. -/
theorem frame_words : Cert.frame_Kernel := fun m ρ _ => Cert.Kernel.Gen.frame m ρ

/-- The kernel over the extended reals runs to completion and leaves its arguments unchanged. -/
theorem frame_ideal : Cert.frame_KernelIdeal := fun m ρ _ => Cert.KernelIdeal.Gen.frame m ρ

/-- The reference over the extended reals runs to completion and leaves its arguments unchanged: its run
    with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The first argument read as two entries of 9216 points in three coordinates. -/
abbrev firstCloud (m : (ℓ : Loc Cert.KernelIdeal.nD Cert.KernelIdeal.τ Cert.KernelIdeal.sig) → Buf (Elt Ideal) ℓ)
    (c : Dev Cert.KernelIdeal.nD) : Cert.Chamfer.Cloud.Idx → EReal :=
  shapeCast Cert.KernelIdeal.S2x9216x3
    (m ((c.tc : Thread Cert.KernelIdeal.nD Cert.KernelIdeal.τ).loc Cert.KernelIdeal.main_arg0))
    Cert.KernelIdeal.Facts₀.shapeCasts_S2x96x96x3_S2x9216x3

/-- The second argument read the same way. -/
abbrev secondCloud (m : (ℓ : Loc Cert.KernelIdeal.nD Cert.KernelIdeal.τ Cert.KernelIdeal.sig) → Buf (Elt Ideal) ℓ)
    (c : Dev Cert.KernelIdeal.nD) : Cert.Chamfer.Cloud.Idx → EReal :=
  shapeCast Cert.KernelIdeal.S2x9216x3
    (m ((c.tc : Thread Cert.KernelIdeal.nD Cert.KernelIdeal.τ).loc Cert.KernelIdeal.main_arg1))
    Cert.KernelIdeal.Facts₀.shapeCasts_S2x96x96x3_S2x9216x3

/-- From finite arguments that agree, the kernel and the reference over the extended reals both end with
    half the sum over the two entries of every point's squared distance to the nearest point of the other
    cloud. The kernel's side: each entry's total is what its last tile leaves, and the host adds the two
    totals and halves. The reference's side: its table of squared norms minus twice the inner products is
    the table of squared distances because the entries are real. -/
theorem algebraic : Cert.algebraic_KernelIdeal_ReferenceIdeal := by
  intro m ρ m' ρ' hpre hagree
  refine ⟨fun c => Cert.Chamfer.result (firstCloud m c) (secondCloud m c), ?_, ?_⟩
  · refine (θ_run Cert.KernelIdeal.defs _ _).mono (fun _ h c => ⟨(h c).1.trans ?_, (h c).2⟩)
      (Cert.KernelIdeal.Arr.kernel_run m ρ
        (fun c b => Cert.Chamfer.entryTotal (firstCloud m c) (secondCloud m c) b)
        (fun c b h => Cert.KernelIdeal.Points.last_entry m c b h))
    rfl
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v20_eq, (hagree c).1, (hagree c).2]
    exact Cert.Chamfer.RefValue.ref_value _ _ Cert.KernelIdeal.Facts₀.shapeCasts_S2x96x96x3_S2x9216x3
      (Cert.Chamfer.Finite.real_of_pre m hpre c).1 (Cert.Chamfer.Finite.real_of_pre m hpre c).2

theorem claim : Cert.Claim :=
  ⟨Cert.Kernel.Gen.facts, Cert.KernelIdeal.Gen.facts, Cert.ReferenceIdeal.Gen.facts, Cert.Pre_finite_inputs.Gen.facts,
    frame_words, frame_ideal, frame_reference, trivial, algebraic⟩

end Cert.Proof

end
